-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S2x200000 : Shape := ⟨2, ![2, 200000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1000000 32) (main_arg2 : IVec S2x200000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S2x1000000 : Shape := ⟨2, ![2, 1000000]⟩
abbrev S2x200000 : Shape := ⟨2, ![2, 200000]⟩
abbrev S128x128 : Shape := ⟨2, ![128, 128]⟩
abbrev S128 : Shape := ⟨1, ![128]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x1 : Shape := ⟨2, ![100000, 1]⟩
abbrev S10000x128 : Shape := ⟨2, ![10000, 128]⟩
abbrev S10000x1 : Shape := ⟨2, ![10000, 1]⟩
abbrev S1100000x128 : Shape := ⟨2, ![1100000, 128]⟩
abbrev S1x128 : Shape := ⟨2, ![1, 128]⟩
abbrev S5000x128 : Shape := ⟨2, ![5000, 128]⟩
abbrev S5000x1 : Shape := ⟨2, ![5000, 1]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S8000x128 : Shape := ⟨2, ![8000, 128]⟩
abbrev S8000x1 : Shape := ⟨2, ![8000, 1]⟩
abbrev S8000 : Shape := ⟨1, ![8000]⟩

abbrev nBuf : Space → Nat
  | .hbm => 89
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S100000, .i32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S1100000, .i32⟩
  | .hbm, ⟨13, _⟩ => ⟨S1100000, .i32⟩
  | .hbm, ⟨14, _⟩ => ⟨S_, .f32⟩
  | .hbm, ⟨15, _⟩ => ⟨S1100000, .f32⟩
  | .hbm, ⟨16, _⟩ => ⟨S_, .f32⟩
  | .hbm, ⟨17, _⟩ => ⟨S100000, .f32⟩
  | .hbm, ⟨18, _⟩ => ⟨S1100000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .bf16⟩
  | .hbm, ⟨30, _⟩ => ⟨S128x128, .bf16⟩
  | .hbm, ⟨31, _⟩ => ⟨S100000x128, .f32⟩
  | .hbm, ⟨32, _⟩ => ⟨S_, .i32⟩
  | .hbm, ⟨33, _⟩ => ⟨S1100000, .i32⟩
  | .hbm, ⟨34, _⟩ => ⟨S1100000, .i1⟩
  | .hbm, ⟨35, _⟩ => ⟨S_, .i32⟩
  | .hbm, ⟨36, _⟩ => ⟨S1100000, .i32⟩
  | .hbm, ⟨37, _⟩ => ⟨S1100000, .i32⟩
  | .hbm, ⟨38, _⟩ => ⟨S1100000, .i32⟩
  | .hbm, ⟨39, _⟩ => ⟨S1100000x1, .i32⟩
  | .hbm, ⟨40, _⟩ => ⟨S1100000x128, .f32⟩
  | .hbm, ⟨41, _⟩ => ⟨S_, .f32⟩
  | .hbm, ⟨42, _⟩ => ⟨S100000x128, .f32⟩
  | .hbm, ⟨43, _⟩ => ⟨S1100000x1, .i32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .bf16⟩
  | .hbm, ⟨48, _⟩ => ⟨S128x128, .bf16⟩
  | .hbm, ⟨49, _⟩ => ⟨S100000x128, .f32⟩
  | .hbm, ⟨50, _⟩ => ⟨S_, .i32⟩
  | .hbm, ⟨51, _⟩ => ⟨S1100000, .i32⟩
  | .hbm, ⟨52, _⟩ => ⟨S1100000, .i1⟩
  | .hbm, ⟨53, _⟩ => ⟨S_, .i32⟩
  | .hbm, ⟨54, _⟩ => ⟨S1100000, .i32⟩
  | .hbm, ⟨55, _⟩ => ⟨S1100000, .i32⟩
  | .hbm, ⟨56, _⟩ => ⟨S1100000, .i32⟩
  | .hbm, ⟨57, _⟩ => ⟨S1100000x1, .i32⟩
  | .hbm, ⟨58, _⟩ => ⟨S1100000x128, .f32⟩
  | .hbm, ⟨59, _⟩ => ⟨S_, .f32⟩
  | .hbm, ⟨60, _⟩ => ⟨S100000x128, .f32⟩
  | .hbm, ⟨61, _⟩ => ⟨S1100000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S1x200000, .i32⟩
  | .hbm, ⟨66, _⟩ => ⟨S200000, .i32⟩
  | .hbm, ⟨67, _⟩ => ⟨S_, .i32⟩
  | .hbm, ⟨68, _⟩ => ⟨S200000, .i32⟩
  | .hbm, ⟨69, _⟩ => ⟨S200000, .i1⟩
  | .hbm, ⟨70, _⟩ => ⟨S_, .i32⟩
  | .hbm, ⟨71, _⟩ => ⟨S200000, .i32⟩
  | .hbm, ⟨72, _⟩ => ⟨S200000, .i32⟩
  | .hbm, ⟨73, _⟩ => ⟨S200000, .i32⟩
  | .hbm, ⟨74, _⟩ => ⟨S200000x1, .i32⟩
  | .hbm, ⟨75, _⟩ => ⟨S200000x128, .f32⟩
  | .hbm, ⟨76, _⟩ => ⟨S1x200000, .i32⟩
  | .hbm, ⟨77, _⟩ => ⟨S200000, .i32⟩
  | .hbm, ⟨78, _⟩ => ⟨S_, .i32⟩
  | .hbm, ⟨79, _⟩ => ⟨S200000, .i32⟩
  | .hbm, ⟨80, _⟩ => ⟨S200000, .i1⟩
  | .hbm, ⟨81, _⟩ => ⟨S_, .i32⟩
  | .hbm, ⟨82, _⟩ => ⟨S200000, .i32⟩
  | .hbm, ⟨83, _⟩ => ⟨S200000, .i32⟩
  | .hbm, ⟨84, _⟩ => ⟨S200000, .i32⟩
  | .hbm, ⟨85, _⟩ => ⟨S200000x1, .i32⟩
  | .hbm, ⟨86, _⟩ => ⟨S200000x128, .f32⟩
  | .hbm, ⟨87, _⟩ => ⟨S200000x1, .f32⟩
  | .hbm, ⟨88, _⟩ => ⟨S200000, .f32⟩
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S10000x128, .bf16⟩
  | .local _ .vmem, ⟨15, _⟩ => ⟨S10000x128, .bf16⟩
  | .local _ .vmem, ⟨16, _⟩ => ⟨S128x128, .bf16⟩
  | .local _ .vmem, ⟨17, _⟩ => ⟨S10000x1, .f32⟩
  | .local _ .vmem, ⟨18, _⟩ => ⟨S10000x1, .f32⟩
  | .local _ .vmem, ⟨19, _⟩ => ⟨S10000x128, .f32⟩
  | .local _ .vmem, ⟨20, _⟩ => ⟨S10000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S8000x128, .f32⟩
  | .local _ .vmem, ⟨29, _⟩ => ⟨S8000x128, .f32⟩
  | .local _ .vmem, ⟨30, _⟩ => ⟨S8000x128, .f32⟩
  | .local _ .vmem, ⟨31, _⟩ => ⟨S8000x128, .f32⟩
  | .local _ .vmem, ⟨32, _⟩ => ⟨S8000x1, .f32⟩
  | .local _ .vmem, ⟨33, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_5 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_10 : Ref sig .tc := ⟨.hbm, 78, rfl⟩
abbrev main_v57 : Ref sig .tc := ⟨.hbm, 79, rfl⟩
abbrev main_v58 : Ref sig .tc := ⟨.hbm, 80, rfl⟩
abbrev main_c_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  shapeCasts_S100000_S100000x1 : S100000.ShapeCasts S100000x1
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  reduces_S8000x128_S8000 : S8000x128.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S200000x1_S200000 : S200000x1.ShapeCasts S200000
  scatter_S100000_S1100000x1_S1100000_n_0_0_1_wf : ScatterDims.WF S100000 S1100000x1 S1100000 [] [0] [0] 1
  dot_S10000x128_S128x128_S10000x128_1_0_0_1_n_n_wf : DotDims.WF S10000x128 S128x128 S10000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  gather_S100000x128_S200000x1_S200000x128_1_0_n_n_0_1_1128_wf : GatherDims.WF S100000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .bf16 = 32 ∨ (Rect.block (s := S100000x128) S10000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S200000x128.size a
  hwx4_0 : ∀ i : grid4.Coords, EltTy.bits .f32 = 32 ∨ (Rect.block (s := S200000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S200000x128.size a
  hwx4_1 : ∀ i : grid4.Coords, EltTy.bits .f32 = 32 ∨ (Rect.block (s := S200000x128) S8000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x1.size a ≤ S200000x1.size a
  hwx4_2 : ∀ i : grid4.Coords, EltTy.bits .f32 = 32 ∨ (Rect.block (s := S200000x1) S8000x1.size (cc4_transform_2 i) (hinb4_2 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf

abbrev win0_0 : Pipeline.Window sig grid0 :=
  Pipeline.Window.ofSpec (Memref.whole main_v16) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v43) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v54) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S8000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S2x200000 : Shape := ⟨2, ![2, 200000]⟩
abbrev S128x128 : Shape := ⟨2, ![128, 128]⟩
abbrev S128 : Shape := ⟨1, ![128]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x128 : Shape := ⟨2, ![1100000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S100000, .i32⟩
  | .hbm, ⟨8, _⟩ => ⟨S1x1000000, .i32⟩
  | .hbm, ⟨9, _⟩ => ⟨S1000000, .i32⟩
  | .hbm, ⟨10, _⟩ => ⟨S1100000, .i32⟩
  | .hbm, ⟨11, _⟩ => ⟨S1x1000000, .i32⟩
  | .hbm, ⟨12, _⟩ => ⟨S1000000, .i32⟩
  | .hbm, ⟨13, _⟩ => ⟨S1100000, .i32⟩
  | .hbm, ⟨14, _⟩ => ⟨S_, .f32⟩
  | .hbm, ⟨15, _⟩ => ⟨S1100000, .f32⟩
  | .hbm, ⟨16, _⟩ => ⟨S_, .f32⟩
  | .hbm, ⟨17, _⟩ => ⟨S100000, .f32⟩
  | .hbm, ⟨18, _⟩ => ⟨S1100000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1100000, .i32⟩
  | .hbm, ⟨30, _⟩ => ⟨S1100000, .i1⟩
  | .hbm, ⟨31, _⟩ => ⟨S_, .i32⟩
  | .hbm, ⟨32, _⟩ => ⟨S1100000, .i32⟩
  | .hbm, ⟨33, _⟩ => ⟨S1100000, .i32⟩
  | .hbm, ⟨34, _⟩ => ⟨S1100000, .i32⟩
  | .hbm, ⟨35, _⟩ => ⟨S1100000x1, .i32⟩
  | .hbm, ⟨36, _⟩ => ⟨S1100000, .f32⟩
  | .hbm, ⟨37, _⟩ => ⟨S_, .i32⟩
  | .hbm, ⟨38, _⟩ => ⟨S1100000, .i32⟩
  | .hbm, ⟨39, _⟩ => ⟨S1100000, .i1⟩
  | .hbm, ⟨40, _⟩ => ⟨S_, .i32⟩
  | .hbm, ⟨41, _⟩ => ⟨S1100000, .i32⟩
  | .hbm, ⟨42, _⟩ => ⟨S1100000, .i32⟩
  | .hbm, ⟨43, _⟩ => ⟨S1100000, .i32⟩
  | .hbm, ⟨44, _⟩ => ⟨S1100000x1, .i32⟩
  | .hbm, ⟨45, _⟩ => ⟨S1100000, .f32⟩
  | .hbm, ⟨46, _⟩ => ⟨S1100000, .f32⟩
  | .hbm, ⟨47, _⟩ => ⟨S100000x128, .f32⟩
  | .hbm, ⟨48, _⟩ => ⟨S_, .i32⟩
  | .hbm, ⟨49, _⟩ => ⟨S1100000, .i32⟩
  | .hbm, ⟨50, _⟩ => ⟨S1100000, .i1⟩
  | .hbm, ⟨51, _⟩ => ⟨S_, .i32⟩
  | .hbm, ⟨52, _⟩ => ⟨S1100000, .i32⟩
  | .hbm, ⟨53, _⟩ => ⟨S1100000, .i32⟩
  | .hbm, ⟨54, _⟩ => ⟨S1100000, .i32⟩
  | .hbm, ⟨55, _⟩ => ⟨S1100000x1, .i32⟩
  | .hbm, ⟨56, _⟩ => ⟨S1100000x128, .f32⟩
  | .hbm, ⟨57, _⟩ => ⟨S1100000x1, .f32⟩
  | .hbm, ⟨58, _⟩ => ⟨S1100000x128, .f32⟩
  | .hbm, ⟨59, _⟩ => ⟨S1100000x128, .f32⟩
  | .hbm, ⟨60, _⟩ => ⟨S_, .f32⟩
  | .hbm, ⟨61, _⟩ => ⟨S100000x128, .f32⟩
  | .hbm, ⟨62, _⟩ => ⟨S1100000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1100000, .i32⟩
  | .hbm, ⟨73, _⟩ => ⟨S1100000, .i1⟩
  | .hbm, ⟨74, _⟩ => ⟨S_, .i32⟩
  | .hbm, ⟨75, _⟩ => ⟨S1100000, .i32⟩
  | .hbm, ⟨76, _⟩ => ⟨S1100000, .i32⟩
  | .hbm, ⟨77, _⟩ => ⟨S1100000, .i32⟩
  | .hbm, ⟨78, _⟩ => ⟨S1100000x1, .i32⟩
  | .hbm, ⟨79, _⟩ => ⟨S1100000x128, .f32⟩
  | .hbm, ⟨80, _⟩ => ⟨S1100000x1, .f32⟩
  | .hbm, ⟨81, _⟩ => ⟨S1100000x128, .f32⟩
  | .hbm, ⟨82, _⟩ => ⟨S1100000x128, .f32⟩
  | .hbm, ⟨83, _⟩ => ⟨S_, .f32⟩
  | .hbm, ⟨84, _⟩ => ⟨S100000x128, .f32⟩
  | .hbm, ⟨85, _⟩ => ⟨S1100000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S1x200000, .i32⟩
  | .hbm, ⟨91, _⟩ => ⟨S200000, .i32⟩
  | .hbm, ⟨92, _⟩ => ⟨S_, .i32⟩
  | .hbm, ⟨93, _⟩ => ⟨S200000, .i32⟩
  | .hbm, ⟨94, _⟩ => ⟨S200000, .i1⟩
  | .hbm, ⟨95, _⟩ => ⟨S_, .i32⟩
  | .hbm, ⟨96, _⟩ => ⟨S200000, .i32⟩
  | .hbm, ⟨97, _⟩ => ⟨S200000, .i32⟩
  | .hbm, ⟨98, _⟩ => ⟨S200000, .i32⟩
  | .hbm, ⟨99, _⟩ => ⟨S200000x1, .i32⟩
  | .hbm, ⟨100, _⟩ => ⟨S200000x128, .f32⟩
  | .hbm, ⟨101, _⟩ => ⟨S1x200000, .i32⟩
  | .hbm, ⟨102, _⟩ => ⟨S200000, .i32⟩
  | .hbm, ⟨103, _⟩ => ⟨S_, .i32⟩
  | .hbm, ⟨104, _⟩ => ⟨S200000, .i32⟩
  | .hbm, ⟨105, _⟩ => ⟨S200000, .i1⟩
  | .hbm, ⟨106, _⟩ => ⟨S_, .i32⟩
  | .hbm, ⟨107, _⟩ => ⟨S200000, .i32⟩
  | .hbm, ⟨108, _⟩ => ⟨S200000, .i32⟩
  | .hbm, ⟨109, _⟩ => ⟨S200000, .i32⟩
  | .hbm, ⟨110, _⟩ => ⟨S200000x1, .i32⟩
  | .hbm, ⟨111, _⟩ => ⟨S200000x128, .f32⟩
  | .hbm, ⟨112, _⟩ => ⟨S200000x128, .f32⟩
  | .hbm, ⟨113, _⟩ => ⟨S_, .f32⟩
  | .hbm, ⟨114, _⟩ => ⟨S200000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_12 : Ref sig .tc := ⟨.hbm, 92, rfl⟩
abbrev main_v67 : Ref sig .tc := ⟨.hbm, 93, rfl⟩
abbrev main_v68 : Ref sig .tc := ⟨.hbm, 94, rfl⟩
abbrev main_c_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_14 : Ref sig .tc := ⟨.hbm, 103, rfl⟩
abbrev main_v76 : Ref sig .tc := ⟨.hbm, 104, rfl⟩
abbrev main_v77 : Ref sig .tc := ⟨.hbm, 105, rfl⟩
abbrev main_c_15 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_16 : Ref sig .tc := ⟨.hbm, 113, rfl⟩
abbrev main_v84 : Ref sig .tc := ⟨.hbm, 114, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x128_S200000_d1 : S200000x128.ReducesTo [1] S200000
  h_S_ : 0 < S_.numel
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x128_S128x128_S100000x128_1_0_0_1_n_n_wf : DotDims.WF S100000x128 S128x128 S100000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  gather_S100000x128_S200000x1_S200000x128_1_0_n_n_0_1_1128_wf : GatherDims.WF S100000x128 S200000x1 S200000x128 [1] [0] [] [0] [] 1 ![1, 128]

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf

class Facts : Prop extends Facts₀ where

variable [Facts]
-- ==== Proof.KRun.lean ====
/-
  The idealized kernel's whole run with its result named.

  @main is thirteen segments: host stretches and five kernel launches. The contents of every buffer the program
  does not scope are tracked from the launch memory through the segments; after the last stretch they are the
  valuation `Gen.W13`. Every weakly fair execution ends with each such buffer at that valuation: the result
  buffer (the scores) at `W13` of its reference, and the seven argument arrays as launched.
-/
import proofs.«126992_j16406775071044_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last
    boundary's contents and the argument arrays as launched. -/
theorem run_main : θ_run defs (onTc (τ := τ) (main (F := F))) ⟨m, fun _ => 0, ρ⟩ (fun r => ∀ c : Dev nD,
      r.2.mem ((c.tc : Thread nD τ).loc main_v65) = W13 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v65 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c)⟩)

end Cert.KernelIdeal.Run

end
-- ==== Proof.KHost.lean ====
/-
  The host side of the idealized kernel's program: what each buffer a kernel launch reads holds when the launch is
  entered, as a pure function of the argument arrays.

  The edge lists are the given sources / targets followed by one self loop per node; a source index is wrapped
  (a negative index has the node count added) before it addresses a gather; the degree of a node is the number of
  edges whose target it is; a node's factor is the inverse root of its degree where that is positive and zero
  elsewhere. Between two launches the program gathers the rows of the previous launch's output along the sources and
  adds them into zeros along the targets. Buffers written once (the edge lists, the factor column, the arguments) keep
  their contents through every later stretch and launch, which is what the "carried" lemmas say.
-/
import proofs.«126992_j16406775071044_2_alg».proof.Proof.Gen.KernelIdeal.Frame
import Idealize.ShloMosaic.Lib.StableHlo.Run
import Idealize.ShloMosaic.Lib.Pipeline.Value

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-- The edges' source indices: the given sources followed by one self loop per node. -/
def srcV (x1 : (⟨S2x1000000, .i32⟩ : BufTy).Contents (Elt F)) : (⟨S1100000, .i32⟩ : BufTy).Contents (Elt F) :=
  concatenate S1100000 0 [⟨S1000000, shapeCast S1000000 (extractStridedSlice S1x1000000 ![0, 0] x1 slices_S2x1000000_S1x1000000_0_0) shapeCasts_S1x1000000_S1000000⟩, ⟨S100000, iotaInDim S100000 32 0⟩] concatenates_S1000000_S100000_S1100000_d0

/-- The edges' target indices: the given targets followed by one self loop per node. -/
def dstV (x1 : (⟨S2x1000000, .i32⟩ : BufTy).Contents (Elt F)) : (⟨S1100000, .i32⟩ : BufTy).Contents (Elt F) :=
  concatenate S1100000 0 [⟨S1000000, shapeCast S1000000 (extractStridedSlice S1x1000000 ![1, 0] x1 slices_S2x1000000_S1x1000000_1_0) shapeCasts_S1x1000000_S1000000⟩, ⟨S100000, iotaInDim S100000 32 0⟩] concatenates_S1000000_S100000_S1100000_d0

/-- The targets as a column of indices, the form a scatter takes them in. -/
def dstCol (x1 : (⟨S2x1000000, .i32⟩ : BufTy).Contents (Elt F)) : (⟨S1100000x1, .i32⟩ : BufTy).Contents (Elt F) :=
  broadcastInDim S1100000x1 ![0] bcast_S1100000_S1100000x1_0 (dstV (F := F) x1)

/-- A negative index has the node count added (one index per edge). -/
def wrapM (v : (⟨S1100000, .i32⟩ : BufTy).Contents (Elt F)) : (⟨S1100000, .i32⟩ : BufTy).Contents (Elt F) :=
  select (cmpi .slt v (broadcastInDim S1100000 ![] bcast_S_S1100000 (constantI S_ 32 0#32)))
    (addi v (broadcastInDim S1100000 ![] bcast_S_S1100000 (constantI S_ 32 100000#32))) v

/-- The wrapped sources as a column of indices, the form a gather takes them in. -/
def srcCol (x1 : (⟨S2x1000000, .i32⟩ : BufTy).Contents (Elt F)) : (⟨S1100000x1, .i32⟩ : BufTy).Contents (Elt F) :=
  broadcastInDim S1100000x1 ![0] bcast_S1100000_S1100000x1_0 (wrapM (F := F) (srcV (F := F) x1))

/-- The degree of every node: ones added into zeros along the targets. -/
def deg (x1 : (⟨S2x1000000, .i32⟩ : BufTy).Contents (Elt F)) : (⟨S100000, .f32⟩ : BufTy).Contents (Elt F) :=
  Host.scatterAdd scatter_S100000_S1100000x1_S1100000_n_0_0_1 (broadcastInDim S100000 ![] bcast_S_S100000 (constant (F := F) S_ .f32 0x00000000#32))
    (dstCol (F := F) x1) (broadcastInDim S1100000 ![] bcast_S_S1100000 (constant (F := F) S_ .f32 0x3F800000#32))

/-- The factor of every node: the inverse root of its degree where positive, zero elsewhere. -/
def dinv (x1 : (⟨S2x1000000, .i32⟩ : BufTy).Contents (Elt F)) : (⟨S100000, .f32⟩ : BufTy).Contents (Elt F) :=
  select (cmpf (F := F) .ogt (deg (F := F) x1) (broadcastInDim S100000 ![] bcast_S_S100000 (constant (F := F) S_ .f32 0x00000000#32)))
    (Host.rsqrt (deg (F := F) x1)) (broadcastInDim S100000 ![] bcast_S_S100000 (id (constant (F := F) S_ .f32 0x00000000#32)))

/-- The factors as a column, the form the kernels take them in. -/
def dinvCol (x1 : (⟨S2x1000000, .i32⟩ : BufTy).Contents (Elt F)) : (⟨S100000x1, .f32⟩ : BufTy).Contents (Elt F) :=
  shapeCast S100000x1 (dinv (F := F) x1) shapeCasts_S100000_S100000x1

/-- A negative index has the node count added (one index per scored pair). -/
def wrapL (v : (⟨S200000, .i32⟩ : BufTy).Contents (Elt F)) : (⟨S200000, .i32⟩ : BufTy).Contents (Elt F) :=
  select (cmpi .slt v (broadcastInDim S200000 ![] bcast_S_S200000 (constantI S_ 32 0#32)))
    (addi v (broadcastInDim S200000 ![] bcast_S_S200000 (constantI S_ 32 100000#32))) v

/-- The first nodes of the scored pairs, wrapped, as a column of indices. -/
def pairCol0 (x2 : (⟨S2x200000, .i32⟩ : BufTy).Contents (Elt F)) : (⟨S200000x1, .i32⟩ : BufTy).Contents (Elt F) :=
  broadcastInDim S200000x1 ![0] bcast_S200000_S200000x1_0
    (wrapL (F := F) (shapeCast S200000 (extractStridedSlice S1x200000 ![0, 0] x2 slices_S2x200000_S1x200000_0_0) shapeCasts_S1x200000_S200000))

/-- The second nodes of the scored pairs, wrapped, as a column of indices. -/
def pairCol1 (x2 : (⟨S2x200000, .i32⟩ : BufTy).Contents (Elt F)) : (⟨S200000x1, .i32⟩ : BufTy).Contents (Elt F) :=
  broadcastInDim S200000x1 ![0] bcast_S200000_S200000x1_0
    (wrapL (F := F) (shapeCast S200000 (extractStridedSlice S1x200000 ![1, 0] x2 slices_S2x200000_S1x200000_1_0) shapeCasts_S1x200000_S200000))

/-- Gather the rows of a node array along the wrapped sources and add them into zeros along the targets. -/
def aggregate (x1 : (⟨S2x1000000, .i32⟩ : BufTy).Contents (Elt F)) (h : (⟨S100000x128, .f32⟩ : BufTy).Contents (Elt F)) : (⟨S100000x128, .f32⟩ : BufTy).Contents (Elt F) :=
  Host.scatterAdd scatter_S100000x128_S1100000x1_S1100000x128_1_0_0_1 (broadcastInDim S100000x128 ![] bcast_S_S100000x128 (constant (F := F) S_ .f32 0x00000000#32))
    (dstCol (F := F) x1) (Host.gather gather_S100000x128_S1100000x1_S1100000x128_1_0_n_n_0_1_1128 h (srcCol (F := F) x1))

variable (m : (ℓ : Loc nD τ sig) → Buf (Elt F) ℓ) (ρ : Dev nD → PrngReg)

/-- No operation of the stretch writes the buffer: it holds after the stretch what it held before. -/
macro "kept_host" h:ident : tactic =>
  `(tactic| exact StableHlo.after_of_forall_not_mem _ _ (List.forall_iff_forall_mem.mp (by
      simp only [$h:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Before the first launch -/

theorem W1_v5 (c : Dev nD) : W1 m ρ c (Proc.devRef .tc main_v5) = srcV (F := F) (m ((c : Thread nD τ).loc main_arg1)) := by
  show StableHlo.after hostOps0 (W0 m ρ c) (Proc.devRef .tc main_v5) = _
  dsimp only [hostOps0]
  after_results
  rfl

theorem W1_v6 (c : Dev nD) : W1 m ρ c (Proc.devRef .tc main_v6) = dstV (F := F) (m ((c : Thread nD τ).loc main_arg1)) := by
  show StableHlo.after hostOps0 (W0 m ρ c) (Proc.devRef .tc main_v6) = _
  dsimp only [hostOps0]
  after_results
  rfl

set_option maxHeartbeats 4000000 in
theorem W3_v15 (c : Dev nD) : W3 m ρ c (Proc.devRef .tc main_v15) = dinvCol (F := F) (m ((c : Thread nD τ).loc main_arg1)) := by
  show StableHlo.after hostOps0_2 (StableHlo.after hostOps0_1 (StableHlo.after hostOps0 (W0 m ρ c))) (Proc.devRef .tc main_v15) = _
  dsimp only [hostOps0_2, hostOps0_1, hostOps0]
  after_results
  rfl

theorem W3_v16 (c : Dev nD) : W3 m ρ c (Proc.devRef .tc main_v16) = truncf .bf16 (m ((c : Thread nD τ).loc main_arg0)) bitsLt_bf16_f32 := by
  show StableHlo.after hostOps0_2 (StableHlo.after hostOps0_1 (StableHlo.after hostOps0 (W0 m ρ c))) (Proc.devRef .tc main_v16) = _
  dsimp only [hostOps0_2, hostOps0_1, hostOps0]
  after_results

theorem W3_v17 (c : Dev nD) : W3 m ρ c (Proc.devRef .tc main_v17) = truncf .bf16 (m ((c : Thread nD τ).loc main_arg3)) bitsLt_bf16_f32 := by
  show StableHlo.after hostOps0_2 (StableHlo.after hostOps0_1 (StableHlo.after hostOps0 (W0 m ρ c))) (Proc.devRef .tc main_v17) = _
  dsimp only [hostOps0_2, hostOps0_1, hostOps0]
  after_results

/-! ## Carried buffers -/

theorem W4_v5 (c : Dev nD) : W4 m ρ c (Proc.devRef .tc main_v5) = srcV (F := F) (m ((c : Thread nD τ).loc main_arg1)) :=
  calc W4 m ρ c (Proc.devRef .tc main_v5)
    _ = W3 m ρ c (Proc.devRef .tc main_v5) := W4_of_ne m ρ c main_v5 (by decide)
    _ = W2 m ρ c (Proc.devRef .tc main_v5) := by kept_host hostOps0_2
    _ = W1 m ρ c (Proc.devRef .tc main_v5) := by kept_host hostOps0_1
    _ = _ := W1_v5 m ρ c

theorem W4_v6 (c : Dev nD) : W4 m ρ c (Proc.devRef .tc main_v6) = dstV (F := F) (m ((c : Thread nD τ).loc main_arg1)) :=
  calc W4 m ρ c (Proc.devRef .tc main_v6)
    _ = W3 m ρ c (Proc.devRef .tc main_v6) := W4_of_ne m ρ c main_v6 (by decide)
    _ = W2 m ρ c (Proc.devRef .tc main_v6) := by kept_host hostOps0_2
    _ = W1 m ρ c (Proc.devRef .tc main_v6) := by kept_host hostOps0_1
    _ = _ := W1_v6 m ρ c

theorem W8_v5 (c : Dev nD) : W8 m ρ c (Proc.devRef .tc main_v5) = srcV (F := F) (m ((c : Thread nD τ).loc main_arg1)) :=
  calc W8 m ρ c (Proc.devRef .tc main_v5)
    _ = W7 m ρ c (Proc.devRef .tc main_v5) := W8_of_ne m ρ c main_v5 (by decide)
    _ = W6 m ρ c (Proc.devRef .tc main_v5) := by kept_host hostOps2
    _ = W5 m ρ c (Proc.devRef .tc main_v5) := W6_of_ne m ρ c main_v5 (by decide)
    _ = W4 m ρ c (Proc.devRef .tc main_v5) := by kept_host hostOps1
    _ = _ := W4_v5 m ρ c

theorem W8_v6 (c : Dev nD) : W8 m ρ c (Proc.devRef .tc main_v6) = dstV (F := F) (m ((c : Thread nD τ).loc main_arg1)) :=
  calc W8 m ρ c (Proc.devRef .tc main_v6)
    _ = W7 m ρ c (Proc.devRef .tc main_v6) := W8_of_ne m ρ c main_v6 (by decide)
    _ = W6 m ρ c (Proc.devRef .tc main_v6) := by kept_host hostOps2
    _ = W5 m ρ c (Proc.devRef .tc main_v6) := W6_of_ne m ρ c main_v6 (by decide)
    _ = W4 m ρ c (Proc.devRef .tc main_v6) := by kept_host hostOps1
    _ = _ := W4_v6 m ρ c

theorem W5_v15 (c : Dev nD) : W5 m ρ c (Proc.devRef .tc main_v15) = dinvCol (F := F) (m ((c : Thread nD τ).loc main_arg1)) :=
  calc W5 m ρ c (Proc.devRef .tc main_v15)
    _ = W4 m ρ c (Proc.devRef .tc main_v15) := by kept_host hostOps1
    _ = W3 m ρ c (Proc.devRef .tc main_v15) := (W4_arr m ρ c 2).trans (((dat0 (V3 m ρ) c).arrAt_in 2 rfl cfg0.N).trans (A_eq0 (V3 m ρ) c 2))
    _ = _ := W3_v15 m ρ c

theorem W7_v15 (c : Dev nD) : W7 m ρ c (Proc.devRef .tc main_v15) = dinvCol (F := F) (m ((c : Thread nD τ).loc main_arg1)) :=
  calc W7 m ρ c (Proc.devRef .tc main_v15)
    _ = W6 m ρ c (Proc.devRef .tc main_v15) := by kept_host hostOps2
    _ = W5 m ρ c (Proc.devRef .tc main_v15) := (W6_arr m ρ c 1).trans (((dat1 (V5 m ρ) c).arrAt_in 1 rfl cfg1.N).trans (A_eq1 (V5 m ρ) c 1))
    _ = _ := W5_v15 m ρ c

theorem W9_v15 (c : Dev nD) : W9 m ρ c (Proc.devRef .tc main_v15) = dinvCol (F := F) (m ((c : Thread nD τ).loc main_arg1)) :=
  calc W9 m ρ c (Proc.devRef .tc main_v15)
    _ = W8 m ρ c (Proc.devRef .tc main_v15) := by kept_host hostOps3
    _ = W7 m ρ c (Proc.devRef .tc main_v15) := (W8_arr m ρ c 2).trans (((dat2 (V7 m ρ) c).arrAt_in 2 rfl cfg2.N).trans (A_eq2 (V7 m ρ) c 2))
    _ = _ := W7_v15 m ρ c

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by kept_host hostOps0_2
    _ = W1 m ρ c (Proc.devRef .tc main_arg4) := by kept_host hostOps0_1
    _ = W0 m ρ c (Proc.devRef .tc main_arg4) := by kept_host hostOps0
    _ = _ := rfl

theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by kept_host hostOps1
    _ = W3 m ρ c (Proc.devRef .tc main_arg5) := W4_of_ne m ρ c main_arg5 (by decide)
    _ = W2 m ρ c (Proc.devRef .tc main_arg5) := by kept_host hostOps0_2
    _ = W1 m ρ c (Proc.devRef .tc main_arg5) := by kept_host hostOps0_1
    _ = W0 m ρ c (Proc.devRef .tc main_arg5) := by kept_host hostOps0
    _ = _ := rfl

theorem W8_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := by kept_host hostOps2
    _ = W5 m ρ c (Proc.devRef .tc main_arg6) := W6_of_ne m ρ c main_arg6 (by decide)
    _ = W4 m ρ c (Proc.devRef .tc main_arg6) := by kept_host hostOps1
    _ = W3 m ρ c (Proc.devRef .tc main_arg6) := W4_of_ne m ρ c main_arg6 (by decide)
    _ = W2 m ρ c (Proc.devRef .tc main_arg6) := by kept_host hostOps0_2
    _ = W1 m ρ c (Proc.devRef .tc main_arg6) := by kept_host hostOps0_1
    _ = W0 m ρ c (Proc.devRef .tc main_arg6) := by kept_host hostOps0
    _ = _ := rfl

theorem W10_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := by kept_host hostOps3
    _ = W7 m ρ c (Proc.devRef .tc main_arg2) := W8_of_ne m ρ c main_arg2 (by decide)
    _ = W6 m ρ c (Proc.devRef .tc main_arg2) := by kept_host hostOps2
    _ = W5 m ρ c (Proc.devRef .tc main_arg2) := W6_of_ne m ρ c main_arg2 (by decide)
    _ = W4 m ρ c (Proc.devRef .tc main_arg2) := by kept_host hostOps1
    _ = W3 m ρ c (Proc.devRef .tc main_arg2) := W4_of_ne m ρ c main_arg2 (by decide)
    _ = W2 m ρ c (Proc.devRef .tc main_arg2) := by kept_host hostOps0_2
    _ = W1 m ρ c (Proc.devRef .tc main_arg2) := by kept_host hostOps0_1
    _ = W0 m ρ c (Proc.devRef .tc main_arg2) := by kept_host hostOps0
    _ = _ := rfl

/-! ## What each later launch is entered with -/

set_option maxHeartbeats 4000000 in
/-- The first bias launch reads the first matmul launch's output aggregated over the edges. -/
theorem W5_v28 (c : Dev nD) : W5 m ρ c (Proc.devRef .tc main_v28) = aggregate (F := F) (m ((c : Thread nD τ).loc main_arg1)) (W4 m ρ c (Proc.devRef .tc main_v18)) := by
  show StableHlo.after hostOps1 (W4 m ρ c) (Proc.devRef .tc main_v28) = _
  dsimp only [hostOps1]
  after_results
  rw [W4_v5, W4_v6]
  rfl

theorem W5_v29 (c : Dev nD) : W5 m ρ c (Proc.devRef .tc main_v29) = shapeCast S1x128 (m ((c : Thread nD τ).loc main_arg4)) shapeCasts_S128_S1x128 := by
  show StableHlo.after hostOps1 (W4 m ρ c) (Proc.devRef .tc main_v29) = _
  dsimp only [hostOps1]
  after_results
  rw [W4_arg4]
  rfl

theorem W7_v31 (c : Dev nD) : W7 m ρ c (Proc.devRef .tc main_v31) = truncf .bf16 (W6 m ρ c (Proc.devRef .tc main_v30)) bitsLt_bf16_f32 := by
  show StableHlo.after hostOps2 (W6 m ρ c) (Proc.devRef .tc main_v31) = _
  dsimp only [hostOps2]
  after_results

theorem W7_v32 (c : Dev nD) : W7 m ρ c (Proc.devRef .tc main_v32) = truncf .bf16 (m ((c : Thread nD τ).loc main_arg5)) bitsLt_bf16_f32 := by
  show StableHlo.after hostOps2 (W6 m ρ c) (Proc.devRef .tc main_v32) = _
  dsimp only [hostOps2]
  after_results
  rw [W6_arg5]

set_option maxHeartbeats 4000000 in
/-- The second bias launch reads the second matmul launch's output aggregated over the edges. -/
theorem W9_v43 (c : Dev nD) : W9 m ρ c (Proc.devRef .tc main_v43) = aggregate (F := F) (m ((c : Thread nD τ).loc main_arg1)) (W8 m ρ c (Proc.devRef .tc main_v33)) := by
  show StableHlo.after hostOps3 (W8 m ρ c) (Proc.devRef .tc main_v43) = _
  dsimp only [hostOps3]
  after_results
  rw [W8_v5, W8_v6]
  rfl

theorem W9_v44 (c : Dev nD) : W9 m ρ c (Proc.devRef .tc main_v44) = shapeCast S1x128 (m ((c : Thread nD τ).loc main_arg6)) shapeCasts_S128_S1x128 := by
  show StableHlo.after hostOps3 (W8 m ρ c) (Proc.devRef .tc main_v44) = _
  dsimp only [hostOps3]
  after_results
  rw [W8_arg6]
  rfl

set_option maxHeartbeats 4000000 in
/-- The scoring launch reads the rows of the second layer's output at the two nodes of each scored pair. -/
theorem W11_v54 (c : Dev nD) : W11 m ρ c (Proc.devRef .tc main_v54)
    = Host.gather gather_S100000x128_S200000x1_S200000x128_1_0_n_n_0_1_1128 (W10 m ρ c (Proc.devRef .tc main_v45)) (pairCol0 (F := F) (m ((c : Thread nD τ).loc main_arg2))) := by
  show StableHlo.after hostOps4 (W10 m ρ c) (Proc.devRef .tc main_v54) = _
  dsimp only [hostOps4]
  after_results
  rw [W10_arg2]
  rfl

set_option maxHeartbeats 4000000 in
theorem W11_v63 (c : Dev nD) : W11 m ρ c (Proc.devRef .tc main_v63)
    = Host.gather gather_S100000x128_S200000x1_S200000x128_1_0_n_n_0_1_1128 (W10 m ρ c (Proc.devRef .tc main_v45)) (pairCol1 (F := F) (m ((c : Thread nD τ).loc main_arg2))) := by
  show StableHlo.after hostOps4 (W10 m ρ c) (Proc.devRef .tc main_v63) = _
  dsimp only [hostOps4]
  after_results
  rw [W10_arg2]
  rfl

/-- The result is the scoring launch's output column read as a vector. -/
theorem W13_v65 (c : Dev nD) : W13 m ρ c (Proc.devRef .tc main_v65) = shapeCast S200000 (W12 m ρ c (Proc.devRef .tc main_v64)) shapeCasts_S200000x1_S200000 := by
  show StableHlo.after hostOps5 (W12 m ρ c) (Proc.devRef .tc main_v65) = _
  dsimp only [hostOps5]
  after_results
  rfl

end Cert.KernelIdeal.HostSide

end
-- ==== Proof.LibScatterGather.lean ====
/-
  Row gathers and row scatters of StableHLO, read at an index, and the one law of the extended reals
  that lets a non-negative finite factor cross an accumulating scatter.

  * a gather of whole rows (`x[idx]` on the leading axis of a matrix, or of a vector): result row e is
    operand row `idx e`, read signed and clamped into the operand;
  * an accumulating scatter of whole rows: update row e lands on operand row `idx e` (read signed, not
    clamped) when that is a row of the operand, and nowhere otherwise;
  * on the extended reals multiplication by c distributes over a finite sum when 0 ≤ c < ⊤, so scaling
    every update that lands on an element by that element's factor scales the accumulated sum.
-/
import Idealize.ShloMosaic.PureOps.Ideal
import Idealize.ShloMosaic.PureOps.Ideal.Laws
import Idealize.ShloMosaic.Lib.ValueIdx

noncomputable section

namespace Cert.ScatterGather

open Idealize.ShloMosaic Idealize.ShloMosaic.ValueIdx

/-! ## Sums on the extended reals -/

/-- A factor `0 ≤ c < ⊤` distributes over a finite sum of extended reals. -/
theorem sum_mul_of_nonneg_ne_top {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih => rw [Finset.sum_insert ha, Finset.sum_insert ha, EReal.right_distrib_of_nonneg_of_ne_top h0 ht, ih]

/-- An accumulating scatter into zeros whose every landing update carries the factor of the element it
    lands on: the factor comes out of the accumulated sum. Only an element some update lands on needs
    its factor non-negative and finite: where nothing lands both sides are zero. -/
theorem hostScatterAdd_zero_mul {s si su : Shape} (d : ScatterDims s si su) {w : Nat} (idx : IVec si w)
    (u u' : su.Idx → EReal) (c : s.Idx → EReal)
    (hc : ∀ j i, d.resultIdx? j idx = some i → 0 ≤ c i ∧ c i ≠ ⊤)
    (h : ∀ j i, d.resultIdx? j idx = some i → u j = u' j * c i) (i : s.Idx) :
    Ideal.hostScatterAdd d (fun _ => 0) idx u i = Ideal.hostScatterAdd d (fun _ => 0) idx u' i * c i := by
  unfold Ideal.hostScatterAdd
  simp only [zero_add]
  by_cases hne : (Finset.univ.filter (fun j => d.resultIdx? j idx = some i)).Nonempty
  · obtain ⟨j0, hj0⟩ := hne
    have hci := hc j0 i (Finset.mem_filter.mp hj0).2
    rw [sum_mul_of_nonneg_ne_top _ _ hci.1 hci.2]
    exact Finset.sum_congr rfl (fun j hj => h j i (Finset.mem_filter.mp hj).2)
  · rw [Finset.not_nonempty_iff_eq_empty.mp hne]; simp

/-- The inverse square root of a positive count is a non-negative real. -/
theorem rsqrt_count {ι : Type} (s : Finset ι) (hs : s.Nonempty) :
    0 ≤ Ideal.rsqrt (0 + ∑ _j ∈ s, (1 : EReal)) ∧ Ideal.rsqrt (0 + ∑ _j ∈ s, (1 : EReal)) ≠ ⊤ := by
  have hcard : 0 < s.card := Finset.card_pos.mpr hs
  have hsum : (0 + ∑ _j ∈ s, (1 : EReal)) = ((s.card : ℝ) : EReal) := by
    rw [zero_add, Finset.sum_const, EReal.nsmul_eq_mul, mul_one]; rfl
  have hpos : (0 : ℝ) < (s.card : ℝ) := by exact_mod_cast hcard
  rw [hsum, Ideal.rsqrt_coe, if_neg (not_lt.mpr hpos.le), if_neg hpos.ne']
  exact ⟨by exact_mod_cast inv_nonneg.mpr (Real.sqrt_nonneg _), EReal.coe_ne_top _⟩

/-! ## A gather of rows -/

section Gather
variable {α : Type} {N M C w : Nat}

/-- `x[idx]` on the leading axis of `x : [N, C]` at `idx : [M]` carried as `[M, 1]`. -/
abbrev rowsDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row a gather reads for result row `e`: the start index read signed, clamped into `[0, N - 1]`. -/
def clampRow (N : Nat) (hN : 0 < N) {M w : Nat} (idx : IVec ⟨2, ![M, 1]⟩ w) (e : Fin M) : Fin N :=
  ⟨min (idx (ix2 e (0 : Fin 1))).toInt.toNat (N - 1), by omega⟩

/-- THE ROW GATHER READ AT `(e, j)`: the operand at row `clampRow … e`, column `j`. -/
theorem gather_rows_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowsDims N M C wf) x idx y = x (ix2 (clampRow N hN idx (y 0)) (y 1)) := by
  unfold Host.gather
  congr 1
  funext a
  refine Fin.ext ?_
  match a with
  | ⟨0, _⟩ =>
    show (rowsDims N M C wf).start y idx 0 + (rowsDims N M C wf).batchCoord y 0 + (rowsDims N M C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N M C wf).startIndexMap from List.mem_singleton.mpr rfl)]
    have hsi : (rowsDims N M C wf).siIdx y ⟨List.idxOf (0 : Fin 2) (rowsDims N M C wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowsDims N M C wf).start y idx 1 + (rowsDims N M C wf).batchCoord y 1 + (rowsDims N M C wf).offCoord y 1 = (y 1).val
    rw [GatherDims.batchCoord_eq_zero _ _ _ List.not_mem_nil]
    unfold GatherDims.start
    rw [dif_neg (show (1 : Fin 2) ∉ ([0] : List (Fin 2)) by decide)]
    simp only [Nat.zero_add, Nat.add_zero]
    unfold GatherDims.offCoord
    rw [dif_pos ((GatherDims.mem_sKept _ _).mpr ⟨(show (1 : Fin 2) ∉ ([0] : List (Fin 2)) by decide), List.not_mem_nil⟩)]
    rfl

/-- `x[idx]` of a vector `x : [N]` at `idx : [M]` carried as `[M, 1]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `clampRow … e`. -/
theorem gather_flat_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatDims N M wf) x idx y = x (ix1 (clampRow N hN idx (y 0))) := by
  unfold Host.gather
  congr 1
  funext a
  obtain rfl : a = 0 := Subsingleton.elim _ _
  refine Fin.ext ?_
  show (flatDims N M wf).start y idx 0 + (flatDims N M wf).batchCoord y 0 + (flatDims N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx y ⟨List.idxOf (0 : Fin 1) (flatDims N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Gather

/-! ## An accumulating scatter of rows -/

section Scatter
variable {N M C w : Nat}

/-- `x.at[idx].add(u)` on the leading axis of `x : [N, C]`, `idx : [M]` carried as `[M, 1]`, `u : [M, C]`. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem rowsScatter_start0 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 0 = (idx (ix2 (j 0) (0 : Fin 1))).toInt := by
  unfold ScatterDims.start
  rw [dif_pos (show (0 : Fin 2) ∈ (rowsScatter N M C wf).scatterDimsToOperandDims from List.mem_singleton.mpr rfl)]
  have hsi : (rowsScatter N M C wf).siIdx j ⟨List.idxOf (0 : Fin 2) (rowsScatter N M C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowsScatter_start1 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 1 = 0 := by
  unfold ScatterDims.start
  rw [dif_neg (show (1 : Fin 2) ∉ ([0] : List (Fin 2)) by decide)]

theorem rowsScatter_window0 (wf : ScatterDims.WF ⟨2, ![N, C]⟩ ⟨2, ![M, 1]⟩ ⟨2, ![M, C]⟩ [1] [0] [0] 1)
    (j : (⟨2, ![M, C]⟩ : Shape).Idx) : (rowsScatter N M C wf).window j 0 = 0 := by
  unfold ScatterDims.window
  have h : (0 : Fin 2) ∉ (rowsScatter N M C wf).sKept := by
    show (0 : Fin 2) ∉ ([1] : List (Fin 2)); decide
  rw [dif_neg h]

theorem rowsScatter_window1 (wf : ScatterDims.WF ⟨2, ![N, C]⟩ ⟨2, ![M, 1]⟩ ⟨2, ![M, C]⟩ [1] [0] [0] 1)
    (j : (⟨2, ![M, C]⟩ : Shape).Idx) : (rowsScatter N M C wf).window j 1 = (j 1).val := by
  unfold ScatterDims.window
  have h : (1 : Fin 2) ∈ (rowsScatter N M C wf).sKept := by
    show (1 : Fin 2) ∈ ([1] : List (Fin 2)); decide
  rw [dif_pos h]
  rfl

/-- WHERE A ROW UPDATE LANDS: element `(e, k)` of the updates lands on `(n, k')` exactly when the index of
    row `e`, read signed, is `n` and `k = k'`. -/
theorem rowsScatter_resultIdx?_eq_some_iff (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) (i : (⟨2, ![N, C]⟩ : Shape).Idx) :
    (rowsScatter N M C wf).resultIdx? j idx = some i ↔
      (idx (ix2 (j 0) (0 : Fin 1))).toInt = ((i 0).val : Int) ∧ (j 1).val = (i 1).val := by
  have hi0 : (i 0).val < N := (i 0).isLt
  have hj1 : (j 1).val < C := (j 1).isLt
  unfold ScatterDims.resultIdx?
  split
  · rename_i h
    rw [Option.some.injEq]
    constructor
    · intro e
      have e0 := congrArg (fun f => (f 0).val) e
      have e1 := congrArg (fun f => (f 1).val) e
      simp only [rowsScatter_start0, rowsScatter_start1, rowsScatter_window0, rowsScatter_window1] at e0 e1
      have h0 := h 0
      simp only [rowsScatter_start0, rowsScatter_window0] at h0
      constructor
      · omega
      · omega
    · rintro ⟨e0, e1⟩
      funext a
      refine Fin.ext ?_
      match a with
      | ⟨0, _⟩ =>
        show ((rowsScatter N M C wf).start j idx 0 + ((rowsScatter N M C wf).window j 0 : Int)).toNat = (i 0).val
        rw [rowsScatter_start0, rowsScatter_window0, e0]; omega
      | ⟨1, _⟩ =>
        show ((rowsScatter N M C wf).start j idx 1 + ((rowsScatter N M C wf).window j 1 : Int)).toNat = (i 1).val
        rw [rowsScatter_start1, rowsScatter_window1]; omega
  · rename_i h
    constructor
    · intro e; exact absurd e (by simp)
    · rintro ⟨e0, e1⟩
      exfalso; apply h
      intro a
      match a with
      | ⟨0, _⟩ =>
        show 0 ≤ (rowsScatter N M C wf).start j idx 0 + ((rowsScatter N M C wf).window j 0 : Int) ∧
          (rowsScatter N M C wf).start j idx 0 + ((rowsScatter N M C wf).window j 0 : Int) < ((⟨2, ![N, C]⟩ : Shape).size 0 : Int)
        rw [rowsScatter_start0, rowsScatter_window0, e0]
        refine ⟨by omega, ?_⟩
        show ((i 0).val : Int) + ((0 : Nat) : Int) < (N : Int)
        omega
      | ⟨1, _⟩ =>
        show 0 ≤ (rowsScatter N M C wf).start j idx 1 + ((rowsScatter N M C wf).window j 1 : Int) ∧
          (rowsScatter N M C wf).start j idx 1 + ((rowsScatter N M C wf).window j 1 : Int) < ((⟨2, ![N, C]⟩ : Shape).size 1 : Int)
        rw [rowsScatter_start1, rowsScatter_window1]
        refine ⟨by omega, ?_⟩
        show (0 : Int) + ((j 1).val : Int) < (C : Int)
        omega

/-- `x.at[idx].add(u)` of a vector `x : [N]`, `idx : [M]` carried as `[M, 1]`, `u : [M]`. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem flatScatter_start0 (wf : ScatterDims.WF ⟨1, ![N]⟩ ⟨2, ![M, 1]⟩ ⟨1, ![M]⟩ [] [0] [0] 1)
    (j : (⟨1, ![M]⟩ : Shape).Idx) (idx : IVec ⟨2, ![M, 1]⟩ w) :
    (flatScatter N M wf).start j idx 0 = (idx (ix2 (j 0) (0 : Fin 1))).toInt := by
  unfold ScatterDims.start
  rw [dif_pos (show (0 : Fin 1) ∈ (flatScatter N M wf).scatterDimsToOperandDims from List.mem_singleton.mpr rfl)]
  have hsi : (flatScatter N M wf).siIdx j ⟨List.idxOf (0 : Fin 1) (flatScatter N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 (wf : ScatterDims.WF ⟨1, ![N]⟩ ⟨2, ![M, 1]⟩ ⟨1, ![M]⟩ [] [0] [0] 1)
    (j : (⟨1, ![M]⟩ : Shape).Idx) : (flatScatter N M wf).window j 0 = 0 := by
  unfold ScatterDims.window
  have h : (0 : Fin 1) ∉ (flatScatter N M wf).sKept := by
    show (0 : Fin 1) ∉ ([] : List (Fin 1)); exact List.not_mem_nil
  rw [dif_neg h]

/-- WHERE A VECTOR UPDATE LANDS: element `e` lands on `n` exactly when its index, read signed, is `n`. -/
theorem flatScatter_resultIdx?_eq_some_iff (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (flatScatter N M wf).resultIdx? j idx = some i ↔ (idx (ix2 (j 0) (0 : Fin 1))).toInt = ((i 0).val : Int) := by
  have hi0 : (i 0).val < N := (i 0).isLt
  unfold ScatterDims.resultIdx?
  split
  · rename_i h
    rw [Option.some.injEq]
    constructor
    · intro e
      have e0 := congrArg (fun f => (f 0).val) e
      simp only [flatScatter_start0, flatScatter_window0] at e0
      have h0 := h 0
      simp only [flatScatter_start0, flatScatter_window0] at h0
      omega
    · intro e0
      funext a
      obtain rfl : a = 0 := Subsingleton.elim _ _
      refine Fin.ext ?_
      show ((flatScatter N M wf).start j idx 0 + ((flatScatter N M wf).window j 0 : Int)).toNat = (i 0).val
      rw [flatScatter_start0, flatScatter_window0, e0]; omega
  · rename_i h
    constructor
    · intro e; exact absurd e (by simp)
    · intro e0
      exfalso; apply h
      intro a
      obtain rfl : a = 0 := Subsingleton.elim _ _
      show 0 ≤ (flatScatter N M wf).start j idx 0 + ((flatScatter N M wf).window j 0 : Int) ∧
        (flatScatter N M wf).start j idx 0 + ((flatScatter N M wf).window j 0 : Int) < ((⟨1, ![N]⟩ : Shape).size 0 : Int)
      rw [flatScatter_start0, flatScatter_window0, e0]
      refine ⟨by omega, ?_⟩
      show ((i 0).val : Int) + ((0 : Nat) : Int) < (N : Int)
      omega

end Scatter

end Cert.ScatterGather

end
-- ==== Proof.LibGraphMean.lean ====
/-
  The mean of gathered rows commutes with a linear map, on the extended reals.

  A graph layer gathers rows of a node array `X` along the edges' sources, adds the gathered rows into the rows
  their edges point to, and divides each row by a per-row divisor. Row `r` of the result is
  `(Σ_{e lands on r} X[src e, ·]) / d r`. When `X` and a weight matrix `B` hold real numbers and `d r` is a
  non-zero real, projecting afterwards,  `Σ_k ((Σ_e X[src e, k]) / d r) · B[q, k]`,  is the same number as
  projecting first,  `(Σ_e Σ_k X[src e, k] · B[q, k]) / d r`:  both are finite sums of products of reals, and the
  law is the exchange of two finite sums with the factor `1 / d r` and `B[q, k]` moved across them.
  The divisor of the layer is the in-degree clamped below by one, `max (#{e lands on r}) 1`: a real, at least one.
-/
import Idealize.ShloMosaic.PureOps.Ideal
import Idealize.ShloMosaic.PureOps.Ideal.Laws
import Idealize.ShloMosaic.Lib.ValueIdx
import proofs.«126992_j16406775071044_2_alg».proof.Proof.LibScatterGather

noncomputable section

namespace Cert.GraphMean

open Idealize.ShloMosaic Idealize.ShloMosaic.ValueIdx Cert.ScatterGather

/-- The coercion of the reals into the extended reals goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {N M C w : Nat}

/-- The update rows that land on operand row `r`: those whose index, read signed, is `r`. -/
def landing (idx : IVec ⟨2, ![M, 1]⟩ w) (r : Fin N) : Finset (Fin M) :=
  Finset.univ.filter fun e => (idx (ix2 e (0 : Fin 1))).toInt = (r.val : Int)

/-- An accumulating row scatter into zeros, read at `(r, k)`: the sum of column `k` of the update rows that land
    on row `r`. -/
theorem scatter_rows_apply (wf : ScatterDims.WF ⟨2, ![N, C]⟩ ⟨2, ![M, 1]⟩ ⟨2, ![M, C]⟩ [1] [0] [0] 1)
    (idx : IVec ⟨2, ![M, 1]⟩ w) (u : (⟨2, ![M, C]⟩ : Shape).Idx → EReal) (r : Fin N) (k : Fin C) :
    Ideal.hostScatterAdd (rowsScatter N M C wf) (fun _ => 0) idx u (ix2 r k) = ∑ e ∈ landing idx r, u (ix2 e k) := by
  unfold Ideal.hostScatterAdd
  rw [zero_add]
  have key : ∀ j : (⟨2, ![M, C]⟩ : Shape).Idx, (rowsScatter N M C wf).resultIdx? j idx = some (ix2 r k) →
      (idx (ix2 (j 0) (0 : Fin 1))).toInt = (r.val : Int) ∧ ix2 (j 0) k = j := by
    intro j hj
    have h := (rowsScatter_resultIdx?_eq_some_iff wf j idx (ix2 r k)).mp hj
    refine ⟨h.1, ?_⟩
    funext a
    match a with
    | ⟨0, _⟩ => rfl
    | ⟨1, _⟩ => exact (Fin.ext h.2).symm
  refine Finset.sum_nbij' (fun j => j 0) (fun e => ix2 e k) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowsScatter_resultIdx?_eq_some_iff wf (ix2 e k) idx (ix2 r k)).mpr ⟨(Finset.mem_filter.mp he).2, rfl⟩⟩
  · intro j hj
    exact (key j (Finset.mem_filter.mp hj).2).2
  · intro e _
    rfl
  · intro j hj
    exact congrArg u (key j (Finset.mem_filter.mp hj).2).2.symm

/-- An accumulating scatter of ones into a vector of zeros, read at `r`: the number of updates that land on `r`. -/
theorem scatter_count_apply (wf : ScatterDims.WF ⟨1, ![N]⟩ ⟨2, ![M, 1]⟩ ⟨1, ![M]⟩ [] [0] [0] 1)
    (idx : IVec ⟨2, ![M, 1]⟩ w) (r : Fin N) :
    Ideal.hostScatterAdd (flatScatter N M wf) (fun _ => 0) idx (fun _ => 1) (ix1 r)
      = (((landing idx r).card : ℝ) : EReal) := by
  unfold Ideal.hostScatterAdd
  rw [zero_add]
  have e : ∑ j ∈ Finset.univ.filter (fun j : (⟨1, ![M]⟩ : Shape).Idx => (flatScatter N M wf).resultIdx? j idx = some (ix1 r)), (1 : EReal)
      = ∑ _e ∈ landing idx r, (1 : EReal) := by
    refine Finset.sum_nbij' (fun j => j 0) (fun e => ix1 e) ?_ ?_ ?_ ?_ ?_
    · intro j hj
      exact Finset.mem_filter.mpr ⟨Finset.mem_univ _,
        (flatScatter_resultIdx?_eq_some_iff wf j idx (ix1 r)).mp (Finset.mem_filter.mp hj).2⟩
    · intro e he
      exact Finset.mem_filter.mpr ⟨Finset.mem_univ _,
        (flatScatter_resultIdx?_eq_some_iff wf (ix1 e) idx (ix1 r)).mpr (Finset.mem_filter.mp he).2⟩
    · intro j _
      exact (eq_ix1 j).symm
    · intro e _
      rfl
    · intro j _
      rfl
  rw [e, Finset.sum_const, EReal.nsmul_eq_mul, mul_one]
  rfl

/-- The same count, for the host's accumulating scatter of a vector of ones into a vector of zeros, whatever the
    names its record, its operand and its updates go by. -/
theorem host_count_apply (d : ScatterDims ⟨1, ![N]⟩ ⟨2, ![M, 1]⟩ ⟨1, ![M]⟩)
    (wf : ScatterDims.WF ⟨1, ![N]⟩ ⟨2, ![M, 1]⟩ ⟨1, ![M]⟩ [] [0] [0] 1) (hd : d = flatScatter N M wf)
    (Z : FVec Ideal ⟨1, ![N]⟩ .f32) (hZ : Z = fun _ => 0) (idx : IVec ⟨2, ![M, 1]⟩ w)
    (U : FVec Ideal ⟨1, ![M]⟩ .f32) (hU : U = fun _ => 1) (r : Fin N) :
    Host.scatterAdd (F := Ideal) d Z idx U (ix1 r) = (((landing idx r).card : ℝ) : EReal) := by
  subst hd hZ hU
  exact scatter_count_apply wf idx r

/-- The in-degree of row `r` clamped below by one: the layer's divisor. -/
def degree (idx : IVec ⟨2, ![M, 1]⟩ w) (r : Fin N) : ℝ := max ((landing idx r).card : ℝ) 1

theorem degree_ne_zero (idx : IVec ⟨2, ![M, 1]⟩ w) (r : Fin N) : degree idx r ≠ 0 :=
  (lt_of_lt_of_le one_pos (le_max_right _ _)).ne'

/-- The maximum of a count and one, on the extended reals, is that real. -/
theorem max_count_one (idx : IVec ⟨2, ![M, 1]⟩ w) (r : Fin N) :
    max (((landing idx r).card : ℝ) : EReal) 1 = (degree idx r : EReal) := by
  unfold degree
  rw [← EReal.coe_one]
  exact (EReal.coe_strictMono.monotone.map_max).symm

/-- The exchange of sums over the reals: scaling and projecting the sum of rows is summing the projected rows and
    scaling. -/
theorem real_law {E K : Type} [Fintype K] (s : Finset E) (a : E → K → ℝ) (b : K → ℝ) (c : ℝ) :
    ∑ k : K, ((∑ e ∈ s, a e k) * c) * b k = (∑ e ∈ s, ∑ k : K, a e k * b k) * c := by
  simp only [Finset.sum_mul]
  rw [Finset.sum_comm]
  exact Finset.sum_congr rfl fun e _ => Finset.sum_congr rfl fun k _ => by ring

/-- THE LAW. `X = ↑a` and `B = ↑b` real, the divisor of row `r` the non-zero real `d r` in every column, the
    scatter's operand zero: the mean of the gathered rows of `X`, projected by `B`, is the mean of the gathered rows
    of the projected `X`. -/
theorem mean_project (hN : 0 < N)
    (wfg : GatherDims.WF ⟨2, ![N, C]⟩ ⟨2, ![M, 1]⟩ ⟨2, ![M, C]⟩ [1] [0] [] [0] [] 1 ![1, C])
    (wfs : ScatterDims.WF ⟨2, ![N, C]⟩ ⟨2, ![M, 1]⟩ ⟨2, ![M, C]⟩ [1] [0] [0] 1)
    (Z : (⟨2, ![N, C]⟩ : Shape).Idx → EReal) (hZ : Z = fun _ => 0)
    (I1 I2 : IVec ⟨2, ![M, 1]⟩ w)
    (Dn : (⟨2, ![N, C]⟩ : Shape).Idx → EReal) (d : Fin N → ℝ) (hd : ∀ r, d r ≠ 0)
    (hDn : ∀ r k, Dn (ix2 r k) = (d r : EReal))
    (a : (⟨2, ![N, C]⟩ : Shape).Idx → ℝ) (b : (⟨2, ![C, C]⟩ : Shape).Idx → ℝ) (r : Fin N) (q : Fin C) :
    ∑ k : Fin C, Ideal.div (Ideal.hostScatterAdd (rowsScatter N M C wfs) Z I2
        (Host.gather (rowsDims N M C wfg) (fun i => (a i : EReal)) I1) (ix2 r k)) (Dn (ix2 r k)) * (b (ix2 q k) : EReal)
      = Ideal.div (Ideal.hostScatterAdd (rowsScatter N M C wfs) Z I2
        (Host.gather (rowsDims N M C wfg) (fun i => ∑ k : Fin C, (a (ix2 (i 0) k) : EReal) * (b (ix2 (i 1) k) : EReal)) I1)
          (ix2 r q)) (Dn (ix2 r q)) := by
  subst hZ
  simp only [scatter_rows_apply, hDn, Ideal.div_coe (hd r), gather_rows_apply hN wfg]
  simp only [← EReal.coe_mul, ← coe_sum]
  exact congrArg _ (real_law (landing I2 r) (fun e k => a (ix2 (clampRow N hN I1 e) k)) (fun k => b (ix2 q k)) (1 / d r))

end Cert.GraphMean

end
-- ==== Proof.LibGcnLayer.lean ====
/-
  One graph-convolution layer with symmetric normalisation, in the two arrangements the two programs use, and the
  two-layer network they both compute.

  Nodes are r < N, edges e < M (the given edges followed by one self-loop per node). Edge e reads node `s e` (its
  source index, read signed and clamped into the node range) and is added into node `d e` (its target index, read
  signed; an edge whose target is not a node is dropped). With  c r = 1/√(deg r)  (0 where the degree is not positive)
  the layer sends a node array xw to
        out[r, k] = c r · Σ_{e lands on r} xw[s e, k] · c (s e).
  * The kernel's program scales the node array by c BEFORE the gather, adds the gathered rows, and scales the sums
    by c AFTER: literally the formula above.
  * The reference scales every gathered row by the edge weight  c (s e) · c (d' e),  d' e the target index read
    signed with a negative index wrapped, clamped — and adds. For an edge that lands on r the target IS r, so the
    weight is c (s e) · c r, and the factor c r, a non-negative real, comes out of the sum: on the extended reals
    a factor 0 ≤ c < ⊤ distributes over a finite sum whatever the summands are.
  No finiteness of the node array is needed.
  Stated for any numbers of nodes N, edges M and columns C and any index width (the network `gcn` with 64 → 64 → 32
  features, `clampRow_of_wrapped` for 100000 nodes and 32-bit indices); the records of the gathers and scatters enter as
  parameters with an equation to the row forms of the scatter / gather lemma file this module imports.
-/
import Idealize.ShloMosaic.PureOps.Ideal
import Idealize.ShloMosaic.PureOps.Ideal.Laws
import Idealize.ShloMosaic.Lib.ValueIdx
import proofs.«126992_j16406775071044_2_alg».proof.Proof.LibScatterGather
import proofs.«126992_j16406775071044_2_alg».proof.Proof.LibGraphMean

noncomputable section

namespace Cert.Gcn

open Idealize.ShloMosaic Idealize.ShloMosaic.ValueIdx Cert.ScatterGather Cert.GraphMean

/-! ## The normalising factor -/

/-- `1/√d` where `d > 0`, else `0`: the factor of a node of degree `d`, as both programs select it. -/
def invSqrtDeg (d : EReal) : EReal := Scalar.select (Ideal.cmp .ogt d 0) (Ideal.rsqrt d) 0

/-- The factor is a non-negative real whatever the degree is: the inverse root of a positive real is a positive
    real, that of `⊤` is `0`, and where the degree is not positive the factor is `0`. -/
theorem invSqrtDeg_nonneg_ne_top (d : EReal) : 0 ≤ invSqrtDeg d ∧ invSqrtDeg d ≠ ⊤ := by
  unfold invSqrtDeg Ideal.cmp
  by_cases h : (0 : EReal) < d
  · rw [show (BitVec.ofBool (decide ((0 : EReal) < d))) = 1#1 by simp [h], select_one]
    induction d using EReal.rec with
    | bot => exact absurd h (by simp)
    | top => rw [Ideal.rsqrt_top]; exact ⟨le_refl _, EReal.zero_ne_top⟩
    | coe r =>
      have hr : (0 : ℝ) < r := by exact_mod_cast h
      rw [Ideal.rsqrt_coe, if_neg (not_lt.mpr hr.le), if_neg hr.ne']
      exact ⟨by exact_mod_cast inv_nonneg.mpr (Real.sqrt_nonneg _), EReal.coe_ne_top _⟩
  · rw [show (BitVec.ofBool (decide ((0 : EReal) < d))) = 0#1 by simp [h], select_zero]
    exact ⟨le_refl _, EReal.zero_ne_top⟩

variable {N M C w : Nat}

/-! ## The two gathers at explicit coordinates -/

/-- The row gather at edge `e`, column `k`: the operand's row `s e`, column `k`. -/
theorem gather_rows_at {α : Type} (hN : 0 < N)
    (wfg : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (k : Fin C) :
    Host.gather (rowsDims N M C wfg) x idx (ix2 e k) = x (ix2 (clampRow N hN idx e) k) :=
  gather_rows_apply hN wfg x idx (ix2 e k)

/-- The vector gather at edge `e`: the operand at `s e`. -/
theorem gather_flat_at {α : Type} (hN : 0 < N)
    (wfv : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatDims N M wfv) x idx (ix1 e) = x (ix1 (clampRow N hN idx e)) :=
  gather_flat_apply hN wfv x idx (ix1 e)

/-! ## The layer -/

/-- One normalised layer at node `r`, column `k`: `c r · Σ_{e lands on r} xw[s e, k] · c (s e)`. -/
def layer (hN : 0 < N) (c : Fin N → EReal) (S D : IVec ⟨2, ![M, 1]⟩ w) (xw : Fin N → Fin C → EReal)
    (r : Fin N) (k : Fin C) : EReal :=
  c r * ∑ e ∈ landing D r, xw (clampRow N hN S e) k * c (clampRow N hN S e)

/-- THE KERNEL'S ARRANGEMENT. The node array scaled by the factor (carried as the array `CB1`, constant along
    rows), rounded to the narrow format (the identity on extended reals), gathered along the sources, widened,
    added into zeros along the targets, scaled again (`CB2`): the layer. -/
theorem layer_of_prescaled (hN : 0 < N)
    (gd : GatherDims ⟨2, ![N, C]⟩ ⟨2, ![M, 1]⟩ ⟨2, ![M, C]⟩)
    (wfg : GatherDims.WF ⟨2, ![N, C]⟩ ⟨2, ![M, 1]⟩ ⟨2, ![M, C]⟩ [1] [0] [] [0] [] 1 ![1, C]) (hgd : gd = rowsDims N M C wfg)
    (sd : ScatterDims ⟨2, ![N, C]⟩ ⟨2, ![M, 1]⟩ ⟨2, ![M, C]⟩)
    (wfs : ScatterDims.WF ⟨2, ![N, C]⟩ ⟨2, ![M, 1]⟩ ⟨2, ![M, C]⟩ [1] [0] [0] 1) (hsd : sd = rowsScatter N M C wfs)
    (Z : FVec Ideal ⟨2, ![N, C]⟩ .f32) (hZ : Z = fun _ => 0)
    (XW CB1 CB2 : FVec Ideal ⟨2, ![N, C]⟩ .f32) (c : Fin N → EReal)
    (hCB1 : ∀ r k, CB1 (ix2 r k) = c r) (hCB2 : ∀ r k, CB2 (ix2 r k) = c r)
    (S D : IVec ⟨2, ![M, 1]⟩ w) (hb : FTy.bits .bf16 < FTy.bits .f32) (r : Fin N) (k : Fin C) :
    mulf CB2 (Host.scatterAdd (F := Ideal) sd Z D
        (extf .f32 (Host.gather gd (truncf .bf16 (mulf XW CB1) hb) S) hb)) (ix2 r k)
      = layer hN c S D (fun r k => XW (ix2 r k)) r k := by
  subst hgd hsd hZ
  rw [mulf_apply, hCB2]
  show c r * Ideal.hostScatterAdd (rowsScatter N M C wfs) (fun _ => 0) D _ (ix2 r k) = _
  rw [scatter_rows_apply]
  unfold layer
  refine congrArg _ (Finset.sum_congr rfl fun e _ => ?_)
  rw [extf_apply, gather_rows_at hN wfg, truncf_apply, mulf_apply, hCB1]

/-- THE REFERENCE'S ARRANGEMENT. The node array gathered along the sources, every gathered row scaled by its
    edge's weight `c (s e) · c (d' e)` (carried as the array `NB`, constant along rows; the two factors gathered
    from the vector `cv`), added into zeros along the targets: the layer, when an edge that lands on node `r` has
    `d' e = r` and the factors are non-negative reals. -/
theorem layer_of_edge_weights (hN : 0 < N)
    (gd : GatherDims ⟨2, ![N, C]⟩ ⟨2, ![M, 1]⟩ ⟨2, ![M, C]⟩)
    (wfg : GatherDims.WF ⟨2, ![N, C]⟩ ⟨2, ![M, 1]⟩ ⟨2, ![M, C]⟩ [1] [0] [] [0] [] 1 ![1, C]) (hgd : gd = rowsDims N M C wfg)
    (sd : ScatterDims ⟨2, ![N, C]⟩ ⟨2, ![M, 1]⟩ ⟨2, ![M, C]⟩)
    (wfs : ScatterDims.WF ⟨2, ![N, C]⟩ ⟨2, ![M, 1]⟩ ⟨2, ![M, C]⟩ [1] [0] [0] 1) (hsd : sd = rowsScatter N M C wfs)
    (gv : GatherDims ⟨1, ![N]⟩ ⟨2, ![M, 1]⟩ ⟨1, ![M]⟩)
    (wfv : GatherDims.WF ⟨1, ![N]⟩ ⟨2, ![M, 1]⟩ ⟨1, ![M]⟩ [] [0] [] [0] [] 1 ![1]) (hgv : gv = flatDims N M wfv)
    (Z : FVec Ideal ⟨2, ![N, C]⟩ .f32) (hZ : Z = fun _ => 0)
    (XW : FVec Ideal ⟨2, ![N, C]⟩ .f32) (cv : FVec Ideal ⟨1, ![N]⟩ .f32) (c : Fin N → EReal)
    (hcv : ∀ r, cv (ix1 r) = c r) (hc : ∀ r, 0 ≤ c r ∧ c r ≠ ⊤)
    (S D D' : IVec ⟨2, ![M, 1]⟩ w)
    (hD' : ∀ (e : Fin M) (r : Fin N), (D (ix2 e (0 : Fin 1))).toInt = (r.val : Int) → clampRow N hN D' e = r)
    (NB : FVec Ideal ⟨2, ![M, C]⟩ .f32)
    (hNB : ∀ e k, NB (ix2 e k) = mulf (Host.gather gv cv S) (Host.gather gv cv D') (ix1 e))
    (r : Fin N) (k : Fin C) :
    Host.scatterAdd (F := Ideal) sd Z D (mulf (Host.gather gd XW S) NB) (ix2 r k)
      = layer hN c S D (fun r k => XW (ix2 r k)) r k := by
  subst hgd hsd hgv hZ
  show Ideal.hostScatterAdd (rowsScatter N M C wfs) (fun _ => 0) D _ (ix2 r k) = _
  rw [scatter_rows_apply]
  unfold layer
  rw [mul_comm, sum_mul_of_nonneg_ne_top _ _ (hc r).1 (hc r).2]
  refine Finset.sum_congr rfl fun e he => ?_
  have hland : (D (ix2 e (0 : Fin 1))).toInt = (r.val : Int) := (Finset.mem_filter.mp he).2
  rw [mulf_apply, gather_rows_at hN wfg, hNB, mulf_apply, gather_flat_at hN wfv, gather_flat_at hN wfv,
    hcv, hcv, hD' e r hland, mul_assoc]

/-! ## The network -/

/-- The two-layer network at node `r`, class `q`: the layer of `x0 · x2`, plus the bias `x3`, clipped below at zero,
    projected by `x4`, the layer again, plus the bias `x5`. -/
def gcn (hN : 0 < N) (c : Fin N → EReal) (S D : IVec ⟨2, ![M, 1]⟩ w)
    (x0 : (⟨2, ![N, 64]⟩ : Shape).Idx → EReal) (x2 : (⟨2, ![64, 64]⟩ : Shape).Idx → EReal)
    (x3 : (⟨1, ![64]⟩ : Shape).Idx → EReal) (x4 : (⟨2, ![64, 32]⟩ : Shape).Idx → EReal)
    (x5 : (⟨1, ![32]⟩ : Shape).Idx → EReal) (r : Fin N) (q : Fin 32) : EReal :=
  layer hN c S D (fun r q => ∑ k : Fin 64,
      max (layer hN c S D (fun r k => ∑ j : Fin 64, x0 (ix2 r j) * x2 (ix2 j k)) r k + x3 (ix1 k)) 0 * x4 (ix2 k q)) r q
    + x5 (ix1 q)

/-! ## Two small facts both programs' readings use -/

/-- The zero word broadcast to any shape is the zero array. -/
theorem bcast_zero_f32 {t : Shape} (h : (⟨0, ![]⟩ : Shape).BroadcastsInDim t (![] : Fin 0 → Fin t.rank)) :
    broadcastInDim t ![] h (constant (F := Ideal) ⟨0, ![]⟩ .f32 0x00000000#32) = fun _ => 0 := by
  funext i
  unfold broadcastInDim
  exact Ideal.ofBits_zero_f32

/-- A target index that names node `r` of 100000 is left alone by the wrap of negative indices
    (`b < 0 ? b + 100000 : b`) and by the clamp into the node range: the reference's second factor of an edge that
    lands on `r` is read at `r`. -/
theorem clampRow_of_wrapped (D D' : IVec ⟨2, ![M, 1]⟩ 32) (e : Fin M) (r : Fin 100000)
    (hw : D' (ix2 e (0 : Fin 1)) = Scalar.select (IntOp.cmpi .slt (D (ix2 e (0 : Fin 1))) 0#32)
      (IntOp.addi (D (ix2 e (0 : Fin 1))) 100000#32) (D (ix2 e (0 : Fin 1))))
    (hr : (D (ix2 e (0 : Fin 1))).toInt = (r.val : Int)) :
    clampRow 100000 (by decide) D' e = r := by
  have hlt : r.val < 100000 := r.isLt
  have hns : (D (ix2 e (0 : Fin 1))).slt 0#32 = false := by
    rw [BitVec.slt, hr]; simp
  have hsel : D' (ix2 e (0 : Fin 1)) = D (ix2 e (0 : Fin 1)) := by
    rw [hw]; unfold IntOp.cmpi; rw [hns]; exact select_zero _ _
  refine Fin.ext ?_
  show min (D' (ix2 e (0 : Fin 1))).toInt.toNat (100000 - 1) = r.val
  rw [hsel, hr]
  omega

end Cert.Gcn

end
-- ==== Proof.Net.lean ====
/-
  The two-layer graph network both programs compute, as one function of the arrays, and the kernel's arrangement of
  one layer.

  With  c r  the factor of node r (a non-negative real), S / D the edges' source / target index columns and
  `layer c S D xw` the normalised aggregation  out[r, k] = c r · Σ_{e lands on r} xw[s e, k] · c (s e):
    hidden[r, k] = max (layer (x0 · w1)[r, k] + b1[k]) 0,
    output[r, k] = layer (hidden · w2)[r, k] + b2[k],
    score[e]     = Σ_j output[p e, j] · output[q e, j],   p e, q e the two nodes of scored pair e (index columns
                   E0, E1, read signed and clamped).
  The kernel's program scales the node array by c before the gather and the aggregated sums by c afterwards; that is
  `layer` itself (`agg_of_prescaled`).
-/
import Idealize.ShloMosaic.PureOps.Ideal
import Idealize.ShloMosaic.PureOps.Ideal.Laws
import Idealize.ShloMosaic.Lib.ValueIdx
import proofs.«126992_j16406775071044_2_alg».proof.Proof.LibScatterGather
import proofs.«126992_j16406775071044_2_alg».proof.Proof.LibGraphMean
import proofs.«126992_j16406775071044_2_alg».proof.Proof.LibGcnLayer

noncomputable section

namespace Cert.Net

open Idealize.ShloMosaic Idealize.ShloMosaic.ValueIdx Cert.ScatterGather Cert.GraphMean Cert.Gcn

variable {N M L C w : Nat}

/-- THE KERNEL'S ARRANGEMENT of one layer: a node array already scaled by the factor (`HS[r, k] = xw[r, k] · c r`),
    gathered along the sources, added into zeros along the targets, and the sum scaled by the factor again. -/
theorem agg_of_prescaled (hN : 0 < N)
    (gd : GatherDims ⟨2, ![N, C]⟩ ⟨2, ![M, 1]⟩ ⟨2, ![M, C]⟩)
    (wfg : GatherDims.WF ⟨2, ![N, C]⟩ ⟨2, ![M, 1]⟩ ⟨2, ![M, C]⟩ [1] [0] [] [0] [] 1 ![1, C]) (hgd : gd = rowsDims N M C wfg)
    (sd : ScatterDims ⟨2, ![N, C]⟩ ⟨2, ![M, 1]⟩ ⟨2, ![M, C]⟩)
    (wfs : ScatterDims.WF ⟨2, ![N, C]⟩ ⟨2, ![M, 1]⟩ ⟨2, ![M, C]⟩ [1] [0] [0] 1) (hsd : sd = rowsScatter N M C wfs)
    (Z : FVec Ideal ⟨2, ![N, C]⟩ .f32) (hZ : Z = fun _ => 0)
    (HS : FVec Ideal ⟨2, ![N, C]⟩ .f32) (xw : Fin N → Fin C → EReal) (c : Fin N → EReal)
    (hHS : ∀ r k, HS (ix2 r k) = xw r k * c r)
    (S D : IVec ⟨2, ![M, 1]⟩ w) (r : Fin N) (k : Fin C) :
    Host.scatterAdd (F := Ideal) sd Z D (Host.gather gd HS S) (ix2 r k) * c r = layer hN c S D xw r k := by
  subst hgd hsd hZ
  show Ideal.hostScatterAdd (rowsScatter N M C wfs) (fun _ => 0) D _ (ix2 r k) * c r = _
  rw [scatter_rows_apply]
  unfold layer
  rw [mul_comm]
  refine congrArg _ (Finset.sum_congr rfl fun e _ => ?_)
  rw [gather_rows_at hN wfg, hHS]

/-- The hidden layer at node `r`, feature `k`. -/
def hiddenLayer (hN : 0 < N) (c : Fin N → EReal) (S D : IVec ⟨2, ![M, 1]⟩ w)
    (x0 : (⟨2, ![N, C]⟩ : Shape).Idx → EReal) (w1 : (⟨2, ![C, C]⟩ : Shape).Idx → EReal) (b1 : Fin C → EReal)
    (r : Fin N) (k : Fin C) : EReal :=
  max (layer hN c S D (fun r k => ∑ j : Fin C, x0 (ix2 r j) * w1 (ix2 j k)) r k + b1 k) 0

/-- The output layer at node `r`, feature `k`. -/
def outputLayer (hN : 0 < N) (c : Fin N → EReal) (S D : IVec ⟨2, ![M, 1]⟩ w)
    (x0 : (⟨2, ![N, C]⟩ : Shape).Idx → EReal) (w1 : (⟨2, ![C, C]⟩ : Shape).Idx → EReal) (b1 : Fin C → EReal)
    (w2 : (⟨2, ![C, C]⟩ : Shape).Idx → EReal) (b2 : Fin C → EReal) (r : Fin N) (k : Fin C) : EReal :=
  layer hN c S D (fun r k => ∑ j : Fin C, hiddenLayer hN c S D x0 w1 b1 r j * w2 (ix2 j k)) r k + b2 k

/-- The score of pair `e`: the dot product of the output rows of its two nodes. -/
def score (hN : 0 < N) (c : Fin N → EReal) (S D : IVec ⟨2, ![M, 1]⟩ w) (E0 E1 : IVec ⟨2, ![L, 1]⟩ w)
    (x0 : (⟨2, ![N, C]⟩ : Shape).Idx → EReal) (w1 : (⟨2, ![C, C]⟩ : Shape).Idx → EReal) (b1 : Fin C → EReal)
    (w2 : (⟨2, ![C, C]⟩ : Shape).Idx → EReal) (b2 : Fin C → EReal) (e : Fin L) : EReal :=
  ∑ j : Fin C, outputLayer hN c S D x0 w1 b1 w2 b2 (clampRow N hN E0 e) j * outputLayer hN c S D x0 w1 b1 w2 b2 (clampRow N hN E1 e) j

end Cert.Net

end
-- ==== Proof.Reg0.lean ====
/-
  The value of the first launch of the matmul-and-row-scale kernel.

  The region computes, block of rows by block of rows, the product of a [100000,128] array with a [128,128] array,
  each row then scaled by that row's entry of a [100000,1] column. Three steps: the body's value at an index of a
  block; what a grid point writes back is its block of one function of the whole arrays; the blocks cover the
  output, so the output array is that function.
-/
import proofs.«126992_j16406775071044_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.Pipeline (Dat)
open Idealize.ShloMosaic.ValueIdx

/-- The body's value at an index of the block: the product of the two loaded blocks summed over the contracted
    axis, times the column block's entry of that row. -/
theorem payload_apply (x0 : FVec Ideal S10000x128 .bf16) (x1 : FVec Ideal S128x128 .bf16) (x2 : FVec Ideal S10000x1 .f32)
    (p : Fin 10000) (q : Fin 128) :
    k0_pay1 (F := Ideal) x0 x1 x2 (ix2 p q) = (∑ j : Fin 128, x0 (ix2 p j) * x1 (ix2 j q)) * x2 (ix2 p 0) := by
  unfold k0_pay1
  simp only [shapeCast_self]
  rw [mulf_apply]
  rw [broadcastTo_apply x2 broadcasts_S10000x1_S10000x128 (ix2 p q) (ix2 p 0) (by
    intro a
    match a with
    | ⟨0, _⟩ => rfl
    | ⟨1, _⟩ => rfl)]
  simp only [matmul]
  rw [Ideal.matmul_constant_zero_apply,
    ← Equiv.sum_comp (contrEquiv1 dot_S10000x128_S128x128_S10000x128_1_0_0_1_n_n 128 rfl rfl).symm]
  congr 1
  refine Finset.sum_congr rfl fun j _ => ?_
  have hj := contrEquiv1_symm_val dot_S10000x128_S128x128_S10000x128_1_0_0_1_n_n 128 rfl rfl j
  have el : dot_S10000x128_S128x128_S10000x128_1_0_0_1_n_n.lhsIdx (ix2 p q)
      ((contrEquiv1 dot_S10000x128_S128x128_S10000x128_1_0_0_1_n_n 128 rfl rfl).symm j) = ix2 p j :=
    funext fun a => Fin.ext (by
      match a with
      | ⟨0, _⟩ =>
        show (dot_S10000x128_S128x128_S10000x128_1_0_0_1_n_n.lhsIdx (ix2 p q) _ 0).val = p.val
        unfold DotDims.lhsIdx
        rw [dif_neg (show ¬(0 : Fin S10000x128.rank) ∈ dot_S10000x128_S128x128_S10000x128_1_0_0_1_n_n.lhsBatch by decide),
          dif_pos (show (0 : Fin S10000x128.rank) ∈ dot_S10000x128_S128x128_S10000x128_1_0_0_1_n_n.lhsNonContracting by decide)]
        rfl
      | ⟨1, _⟩ =>
        exact (dot_S10000x128_S128x128_S10000x128_1_0_0_1_n_n.lhsIdx_val_of_single rfl (ix2 p q) _).trans hj)
  have er : dot_S10000x128_S128x128_S10000x128_1_0_0_1_n_n.rhsIdx (ix2 p q)
      ((contrEquiv1 dot_S10000x128_S128x128_S10000x128_1_0_0_1_n_n 128 rfl rfl).symm j) = ix2 j q :=
    funext fun a => Fin.ext (by
      match a with
      | ⟨0, _⟩ =>
        exact (dot_S10000x128_S128x128_S10000x128_1_0_0_1_n_n.rhsIdx_val_of_single rfl (ix2 p q) _).trans hj
      | ⟨1, _⟩ =>
        show (dot_S10000x128_S128x128_S10000x128_1_0_0_1_n_n.rhsIdx (ix2 p q) _ 1).val = q.val
        unfold DotDims.rhsIdx
        rw [dif_neg (show ¬(1 : Fin S128x128.rank) ∈ dot_S10000x128_S128x128_S10000x128_1_0_0_1_n_n.rhsBatch by decide),
          dif_pos (show (1 : Fin S128x128.rank) ∈ dot_S10000x128_S128x128_S10000x128_1_0_0_1_n_n.rhsNonContracting by decide)]
        rfl)
  rw [el, er]

/-- The offsets of a whole-block access, as the constant function. -/
theorem zero_offsets : (![0, 0] : Fin 2 → Nat) = fun _ => 0 := funext fun a => by fin_cases a <;> rfl

/-- The array the region leaves: each row of the product of the two matrices, scaled by that row's entry of the column. -/
def scaledProduct (A : S100000x128.Idx → EReal) (B : S128x128.Idx → EReal) (s : S100000x1.Idx → EReal) :
    S100000x128.Idx → EReal :=
  fun i => (∑ j : Fin 128, A (ix2 (i 0 : Fin 100000) j) * B (ix2 j (i 1 : Fin 128))) * s (ix2 (i 0 : Fin 100000) (0 : Fin 1))

/-- The printed block index maps over the grid: the row blocks follow the grid point, every other block index is zero. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The array row that row `p` of the block of grid point `t` is. -/
def row (t : Fin cfg0.N) (p : Fin 10000) : Fin 100000 :=
  ⟨t.val * 10000 + p.val, by have h := t.isLt; have hN : cfg0.N = 10 := N_0; omega⟩

/-- Where an element of the left operand's block sits in its array. -/
theorem emb_lhs (t : Fin cfg0.N) (p : Fin 10000) (j : Fin 128) :
    ((cfg0.win 0).blk t).view.emb (ix2 p j) = ix2 (row t p) j := by
  obtain ⟨e0, e1, -⟩ := index_facts t
  funext a; apply Fin.ext
  match a with
  | ⟨0, _⟩ => show win0_0.index t (0 : Fin 2) * 10000 + 1 * p.val = t.val * 10000 + p.val; omega
  | ⟨1, _⟩ => show win0_0.index t (1 : Fin 2) * 128 + 1 * j.val = j.val; omega

/-- The right operand's one block is its whole array. -/
theorem emb_rhs (t : Fin cfg0.N) (j : Fin 128) (q : Fin 128) :
    ((cfg0.win 1).blk t).view.emb (ix2 j q) = ix2 j q := by
  obtain ⟨-, -, e2, e3, -⟩ := index_facts t
  funext a; apply Fin.ext
  match a with
  | ⟨0, _⟩ => show win0_1.index t (0 : Fin 2) * 128 + 1 * j.val = j.val; omega
  | ⟨1, _⟩ => show win0_1.index t (1 : Fin 2) * 128 + 1 * q.val = q.val; omega

/-- Where an element of the column's block sits in its array. -/
theorem emb_col (t : Fin cfg0.N) (p : Fin 10000) (z : Fin 1) :
    ((cfg0.win 2).blk t).view.emb (ix2 p z) = ix2 (row t p) z := by
  obtain ⟨-, -, -, -, e4, e5, -⟩ := index_facts t
  funext a; apply Fin.ext
  match a with
  | ⟨0, _⟩ => show win0_2.index t (0 : Fin 2) * 10000 + 1 * p.val = t.val * 10000 + p.val; omega
  | ⟨1, _⟩ => show win0_2.index t (1 : Fin 2) * 1 + 1 * z.val = z.val; omega

/-- Where an element of the output's block sits in its array. -/
theorem emb_out (t : Fin cfg0.N) (p : Fin 10000) (q : Fin 128) :
    ((cfg0.win 3).blk t).view.emb (ix2 p q) = ix2 (row t p) q := by
  obtain ⟨-, -, -, -, -, -, e6, e7⟩ := index_facts t
  funext a; apply Fin.ext
  match a with
  | ⟨0, _⟩ => show win0_3.index t (0 : Fin 2) * 10000 + 1 * p.val = t.val * 10000 + p.val; omega
  | ⟨1, _⟩ => show win0_3.index t (1 : Fin 2) * 128 + 1 * q.val = q.val; omega

variable (V : (c : Dev nD) → (b : Ref sig .tc) → Buf (Elt Ideal) ((c : Thread nD τ).loc b))

/-- The left operand's block, read at an index. -/
theorem read_lhs (c : Dev nD) (t : Fin cfg0.N) (p : Fin 10000) (j : Fin 128) :
    iblk0 (F := Ideal) V c 0 t (ix2 p j) = V c main_v16 (ix2 (row t p) j) := by
  show V c main_v16 (((cfg0.win 0).blk t).view.emb (ix2 p j)) = _
  rw [emb_lhs]

/-- The right operand's block, read at an index. -/
theorem read_rhs (c : Dev nD) (t : Fin cfg0.N) (j : Fin 128) (q : Fin 128) :
    iblk0 (F := Ideal) V c 1 t (ix2 j q) = V c main_v17 (ix2 j q) := by
  show V c main_v17 (((cfg0.win 1).blk t).view.emb (ix2 j q)) = _
  rw [emb_rhs]

/-- The column's block, read at an index. -/
theorem read_col (c : Dev nD) (t : Fin cfg0.N) (p : Fin 10000) (z : Fin 1) :
    iblk0 (F := Ideal) V c 2 t (ix2 p z) = V c main_v15 (ix2 (row t p) z) := by
  show V c main_v15 (((cfg0.win 2).blk t).view.emb (ix2 p z)) = _
  rw [emb_col]

/-- What grid point `t` writes back is its block of the scaled product of the arrays as the region finds them. -/
theorem flushed_eq (c : Dev nD) (t : Fin cfg0.N) :
    (dat0 (F := Ideal) V c).flushed 3 t
      = ((cfg0.win 3).blk t).view.read (Elt Ideal) (scaledProduct (V c main_v16) (V c main_v17) (V c main_v15)) := by
  show (cfg0.win 3).cut (grid0.coords t) ((dat0 (F := Ideal) V c).after 3 t) = _
  rw [after0_3]
  unfold out0_3
  rw [View.canon_unit_zero zero_offsets]
  simp only [View.ld_unit_zero (S := S10000x128) zero_offsets, View.ld_unit_zero (S := S128x128) zero_offsets, View.ld_unit_zero (S := S10000x1) zero_offsets]
  funext y
  obtain ⟨p, q, rfl⟩ : ∃ (p : Fin 10000) (q : Fin 128), y = ix2 p q := ⟨y 0, y 1, eq_ix2 (n0 := 10000) (n1 := 128) y⟩
  show k0_pay1 (F := Ideal) (iblk0 V c 0 t) (iblk0 V c 1 t) (iblk0 V c 2 t) (ix2 p q)
    = scaledProduct (V c main_v16) (V c main_v17) (V c main_v15) (((cfg0.win 3).blk t).view.emb (ix2 p q))
  rw [payload_apply, emb_out]
  simp only [read_lhs, read_rhs, read_col]
  rfl

/-- An index of the array is in the block of grid point `t` iff each coordinate is in the block's range on its axis. -/
theorem mem_blk (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v18).slice (win0_3.rect t)).set ↔ _
  rw [View.set_slice_whole, Rect.mem_set_unit]
  exact Iff.rfl

/-- Every index of the array is in the block of the grid point its row falls in. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, -, -, e6, e7⟩ := index_facts t
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

/-- The output array after the region is the scaled product of the arrays as the region finds them. -/
theorem out_eq (c : Dev nD) :
    (dat0 (F := Ideal) V c).arrAt 3 cfg0.N = scaledProduct (V c main_v16) (V c main_v17) (V c main_v15) :=
  (dat0 (F := Ideal) V c).arrAt_eq_of_cover 3 _ (fun t _ => flushed_eq V c t) cover

/-- The scaled product at an index. -/
theorem scaledProduct_apply (A : S100000x128.Idx → EReal) (B : S128x128.Idx → EReal) (s : S100000x1.Idx → EReal)
    (r : Fin 100000) (k : Fin 128) :
    scaledProduct A B s (ix2 r k) = (∑ j : Fin 128, A (ix2 r j) * B (ix2 j k)) * s (ix2 r 0) := rfl

/-- The output array after the region, at an index: the row of the left array times the column of the right one,
    scaled by the row's entry of the column array. -/
theorem out_apply (c : Dev nD) (r : Fin 100000) (k : Fin 128) :
    (dat0 (F := Ideal) V c).arrAt 3 cfg0.N (ix2 r k)
      = (let A : S100000x128.Idx → EReal := V c main_v16
         let B : S128x128.Idx → EReal := V c main_v17
         let s : S100000x1.Idx → EReal := V c main_v15
         (∑ j : Fin 128, A (ix2 r j) * B (ix2 j k)) * s (ix2 r 0)) := by
  rw [out_eq]
  rfl

end Cert.KernelIdeal.Reg0

end
-- ==== Proof.Reg1.lean ====
import proofs.«126992_j16406775071044_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
# The scale, bias and rectify launch, read at an index

The launch walks the rows of a `100000 × 128` array in 20 blocks of 5000 rows. At each block it multiplies every
row by that row's entry of a `100000 × 1` column, adds a `1 × 128` row, and takes the maximum with zero. The result is that
every entry `(r, k)` of the output array is `max (x r k * s r + b k) 0`, whatever the arrays hold when the launch is entered.
-/

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.Pipeline (Dat)
open Idealize.ShloMosaic.ValueIdx

/-! ## One block: the body's arithmetic at an entry of the block -/

/-- A column block `5000 × 1` spread along the 128 columns reads, at `(p, k)`, the column's entry of row `p`. -/
theorem column_spread_apply (v : FVec Ideal S5000x1 .f32) (p : Fin 5000) (k : Fin 128) :
    broadcastTo S5000x128 v broadcasts_S5000x1_S5000x128 (ix2 p k) = v (ix2 p (0 : Fin 1)) := by
  refine broadcastTo_apply v broadcasts_S5000x1_S5000x128 (ix2 p k) (ix2 p (0 : Fin 1)) fun ax => ?_
  match ax with
  | ⟨0, _⟩ =>
    show p.val = if (5000 : ℕ) = 1 then 0 else p.val
    rw [if_neg (by omega)]
  | ⟨1, _⟩ =>
    show (0 : ℕ) = if (1 : ℕ) = 1 then 0 else k.val
    rw [if_pos rfl]

/-- The body's result at entry `(p, k)` of a block: the block's entry times the column's entry of row `p`, plus the
    row's entry of column `k`, cut below at zero. -/
theorem body_apply (x0 : FVec Ideal S5000x128 .f32) (x1 : FVec Ideal S5000x1 .f32) (x2 : FVec Ideal S1x128 .f32)
    (p : Fin 5000) (k : Fin 128) :
    k1_pay1 (F := Ideal) x0 x1 x2 (ix2 p k)
      = max (x0 (ix2 p k) * x1 (ix2 p (0 : Fin 1)) + x2 (ix2 (0 : Fin 1) k)) 0 := by
  unfold k1_pay1
  simp only [shapeCast_self]
  refine (maximumf_apply _ _ (ix2 p k)).trans ?_
  refine congrArg₂ max ?_ ?_
  · refine (addf_apply _ _ (ix2 p k)).trans ?_
    refine congrArg₂ (· + ·) ?_ (broadcastTo_1b_ab_apply x2 broadcasts_S1x128_S5000x128 p k)
    refine (mulf_apply _ _ (ix2 p k)).trans ?_
    exact congrArg (x0 (ix2 p k) * ·) (column_spread_apply x1 p k)
  · exact Ideal.ofBits_zero_f32

/-! ## The whole array -/

/-- The array the launch computes from the three arrays it reads: entry `(r, k)` is
    `max (x (r, k) * s (r, 0) + b (0, k)) 0`. -/
def result (x : S100000x128.Idx → Elt Ideal .f32) (s : S100000x1.Idx → Elt Ideal .f32) (b : S1x128.Idx → Elt Ideal .f32) :
    S100000x128.Idx → Elt Ideal .f32 :=
  fun i => max (x i * s (ix2 (⟨(i 0).val, idx2_lt0 i⟩ : Fin 100000) (0 : Fin 1)) + b (ix2 (0 : Fin 1) (⟨(i 1).val, idx2_lt1 i⟩ : Fin 128))) 0

theorem result_apply (x : S100000x128.Idx → Elt Ideal .f32) (s : S100000x1.Idx → Elt Ideal .f32) (b : S1x128.Idx → Elt Ideal .f32)
    (r : Fin 100000) (k : Fin 128) :
    result x s b (ix2 r k) = max (x (ix2 r k) * s (ix2 r (0 : Fin 1)) + b (ix2 (0 : Fin 1) k)) 0 := rfl

theorem zero_offsets : (![0, 0] : Fin 2 → Nat) = fun _ => 0 := funext fun a => by fin_cases a <;> rfl

/-- The block index maps over the 20 grid points: the two row-blocked inputs and the output are at block `(t, 0)`,
    the bias row at block `(0, 0)`. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every row block is some grid point's. -/
theorem block_onto : ∀ q : Fin 20, ∃ t : Fin cfg1.N, win1_3.index t = ![q.val, 0] :=
  (by decide +kernel : ∀ q : Fin 20, ∃ t : Fin grid1.N, win1_3.index t = ![q.val, 0])

section
variable (V : (c : Dev nD) → (b : Ref sig .tc) → Buf (Elt Ideal) ((c : Thread nD τ).loc b))

/-- Entry `y` of the first input's block at point `t` is entry `(5000 t + y₀, y₁)` of its array. -/
theorem block0_apply (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v28 : S100000x128.Idx → Elt Ideal .f32) i := by
  obtain ⟨e0, e1, -⟩ := block_indices t
  unfold iblk1
  rw [View.read_apply]
  show V c main_v28 _ = V c main_v28 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- Entry `y` of the column's block at point `t` is entry `(5000 t + y₀, y₁)` of the column. -/
theorem block1_apply (c : Dev nD) (t : Fin cfg1.N) (y : S5000x1.Idx) (i : S100000x1.Idx)
    (h0 : (i 0).val = t.val * 5000 + (y 0).val) (h1 : (i 1).val = (y 1).val) :
    (iblk1 V c 1 t : Vec Ideal S5000x1 .f32) y = (V c main_v15 : S100000x1.Idx → Elt Ideal .f32) i := by
  obtain ⟨-, -, e0, e1, -⟩ := block_indices t
  unfold iblk1
  rw [View.read_apply]
  show V c main_v15 _ = V c main_v15 _
  congr 1
  funext a
  apply Fin.ext
  match a with
  | ⟨0, _⟩ => show win1_1.index t (0 : Fin 2) * 5000 + 1 * (y 0).val = (i 0).val; rw [e0, h0]; omega
  | ⟨1, _⟩ => show win1_1.index t (1 : Fin 2) * 1 + 1 * (y 1).val = (i 1).val; rw [e1, h1]; omega

/-- The bias row's block at every point is the row itself. -/
theorem block2_apply (c : Dev nD) (t : Fin cfg1.N) (y : S1x128.Idx) (i : S1x128.Idx)
    (h0 : (i 0).val = (y 0).val) (h1 : (i 1).val = (y 1).val) :
    (iblk1 V c 2 t : Vec Ideal S1x128 .f32) y = (V c main_v29 : S1x128.Idx → Elt Ideal .f32) i := by
  obtain ⟨-, -, -, -, e0, e1, -⟩ := block_indices t
  unfold iblk1
  rw [View.read_apply]
  show V c main_v29 _ = V c main_v29 _
  congr 1
  funext a
  apply Fin.ext
  match a with
  | ⟨0, _⟩ => show win1_2.index t (0 : Fin 2) * 1 + 1 * (y 0).val = (i 0).val; rw [e0, h0]; omega
  | ⟨1, _⟩ => show win1_2.index t (1 : Fin 2) * 128 + 1 * (y 1).val = (i 1).val; rw [e1, h1]; omega

/-- What point `t` leaves in the output's buffer, at entry `(p, k)`: `result` at row `5000 t + p`, column `k`. -/
theorem left_apply (c : Dev nD) (t : Fin cfg1.N) (p : Fin 5000) (k : Fin 128) (i : S100000x128.Idx)
    (h0 : (i 0).val = t.val * 5000 + p.val) (h1 : (i 1).val = k.val) :
    out1_3 (F := Ideal) (iblk1 V c 0 t) (iblk1 V c 1 t) (iblk1 V c 2 t) (ix2 p k)
      = result (V c main_v28) (V c main_v15) (V c main_v29) i := by
  unfold out1_3
  rw [View.canon_unit_zero zero_offsets]
  simp only [View.ld_unit_zero (S := S5000x128) zero_offsets, View.ld_unit_zero (S := S5000x1) zero_offsets,
    View.ld_unit_zero (S := S1x128) zero_offsets]
  refine (body_apply (iblk1 V c 0 t) (iblk1 V c 1 t) (iblk1 V c 2 t) p k).trans ?_
  rw [block0_apply V c t (ix2 p k) i h0 h1,
    block1_apply V c t (ix2 p (0 : Fin 1)) (ix2 (⟨(i 0).val, idx2_lt0 i⟩ : Fin 100000) (0 : Fin 1)) h0 rfl,
    block2_apply V c t (ix2 (0 : Fin 1) k) (ix2 (0 : Fin 1) (⟨(i 1).val, idx2_lt1 i⟩ : Fin 128)) rfl h1]
  rfl

/-- What point `t` writes back is block `t` of `result`. -/
theorem written_back (c : Dev nD) (t : Fin cfg1.N) :
    (dat1 (F := Ideal) V c).flushed 3 t
      = ((cfg1.win 3).blk t).view.read (Elt Ideal) (result (V c main_v28) (V c main_v15) (V c main_v29)) := by
  show (cfg1.win 3).cut (grid1.coords t) ((dat1 V c).after 3 t) = _
  rw [after1_3]
  obtain ⟨-, -, -, -, -, -, e0, e1⟩ := block_indices t
  funext j
  obtain ⟨p, k, rfl⟩ : ∃ (p : Fin 5000) (k : Fin 128), j = ix2 p k := ⟨j 0, j 1, eq_ix2 j⟩
  show out1_3 (F := Ideal) (iblk1 V c 0 t) (iblk1 V c 1 t) (iblk1 V c 2 t) (ix2 p k)
      = result (V c main_v28) (V c main_v15) (V c main_v29) (((cfg1.win 3).blk t).view.emb (ix2 p k))
  refine left_apply V c t p k _ ?_ ?_
  · show win1_3.index t (0 : Fin 2) * 5000 + 1 * p.val = t.val * 5000 + p.val; rw [e0]; omega
  · show win1_3.index t (1 : Fin 2) * 128 + 1 * k.val = k.val; rw [e1]; omega

/-- An entry of the array is in point `t`'s block when each coordinate is in the block's range on its axis. -/
theorem mem_block (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v30).slice (win1_3.rect t)).set ↔ _
  rw [View.set_slice_whole, Rect.mem_set_unit]
  exact Iff.rfl

/-- Row `r` is in the block of point `r / 5000`: the 20 blocks cover the array. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := block_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the launch is `result` of the arrays the launch found. -/
theorem out_eq (c : Dev nD) :
    (dat1 (F := Ideal) V c).arrAt 3 cfg1.N = result (V c main_v28) (V c main_v15) (V c main_v29) :=
  (dat1 (F := Ideal) V c).arrAt_eq_of_cover 3 (result (V c main_v28) (V c main_v15) (V c main_v29))
    (fun t _ => written_back V c t) covered

/-- THE LAUNCH AT AN ENTRY: after it, entry `(r, k)` of the output array is
    `max (x (r, k) * s (r, 0) + b (0, k)) 0` of the arrays the launch found. -/
theorem out_apply (c : Dev nD) (r : Fin 100000) (k : Fin 128) :
    (dat1 (F := Ideal) V c).arrAt 3 cfg1.N (ix2 r k)
      = max (α := EReal) (HAdd.hAdd (α := EReal) (β := EReal) (γ := EReal)
          (HMul.hMul (α := EReal) (β := EReal) (γ := EReal) (V c main_v28 (ix2 r k)) (V c main_v15 (ix2 r (0 : Fin 1))))
          (V c main_v29 (ix2 (0 : Fin 1) k))) 0 := by
  rw [out_eq V c]
  rfl

end

end Cert.KernelIdeal.Reg1

end
-- ==== Proof.Reg2.lean ====
/-
  The value of the second launch of the matmul-and-row-scale kernel.

  The region computes, block of rows by block of rows, the product of a [100000,128] array with a [128,128] array,
  each row then scaled by that row's entry of a [100000,1] column. Three steps: the body's value at an index of a
  block; what a grid point writes back is its block of one function of the whole arrays; the blocks cover the
  output, so the output array is that function.
-/
import proofs.«126992_j16406775071044_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen Idealize.ShloMosaic Idealize.ShloMosaic.TcCoe Idealize.SL.Sem
open Idealize.ShloMosaic.Pipeline (Dat)
open Idealize.ShloMosaic.ValueIdx

/-- The body's value at an index of the block: the product of the two loaded blocks summed over the contracted
    axis, times the column block's entry of that row. -/
theorem payload_apply (x0 : FVec Ideal S10000x128 .bf16) (x1 : FVec Ideal S128x128 .bf16) (x2 : FVec Ideal S10000x1 .f32)
    (p : Fin 10000) (q : Fin 128) :
    k2_pay1 (F := Ideal) x0 x1 x2 (ix2 p q) = (∑ j : Fin 128, x0 (ix2 p j) * x1 (ix2 j q)) * x2 (ix2 p 0) := by
  unfold k2_pay1
  simp only [shapeCast_self]
  rw [mulf_apply]
  rw [broadcastTo_apply x2 broadcasts_S10000x1_S10000x128 (ix2 p q) (ix2 p 0) (by
    intro a
    match a with
    | ⟨0, _⟩ => rfl
    | ⟨1, _⟩ => rfl)]
  simp only [matmul]
  rw [Ideal.matmul_constant_zero_apply,
    ← Equiv.sum_comp (contrEquiv1 dot_S10000x128_S128x128_S10000x128_1_0_0_1_n_n 128 rfl rfl).symm]
  congr 1
  refine Finset.sum_congr rfl fun j _ => ?_
  have hj := contrEquiv1_symm_val dot_S10000x128_S128x128_S10000x128_1_0_0_1_n_n 128 rfl rfl j
  have el : dot_S10000x128_S128x128_S10000x128_1_0_0_1_n_n.lhsIdx (ix2 p q)
      ((contrEquiv1 dot_S10000x128_S128x128_S10000x128_1_0_0_1_n_n 128 rfl rfl).symm j) = ix2 p j :=
    funext fun a => Fin.ext (by
      match a with
      | ⟨0, _⟩ =>
        show (dot_S10000x128_S128x128_S10000x128_1_0_0_1_n_n.lhsIdx (ix2 p q) _ 0).val = p.val
        unfold DotDims.lhsIdx
        rw [dif_neg (show ¬(0 : Fin S10000x128.rank) ∈ dot_S10000x128_S128x128_S10000x128_1_0_0_1_n_n.lhsBatch by decide),
          dif_pos (show (0 : Fin S10000x128.rank) ∈ dot_S10000x128_S128x128_S10000x128_1_0_0_1_n_n.lhsNonContracting by decide)]
        rfl
      | ⟨1, _⟩ =>
        exact (dot_S10000x128_S128x128_S10000x128_1_0_0_1_n_n.lhsIdx_val_of_single rfl (ix2 p q) _).trans hj)
  have er : dot_S10000x128_S128x128_S10000x128_1_0_0_1_n_n.rhsIdx (ix2 p q)
      ((contrEquiv1 dot_S10000x128_S128x128_S10000x128_1_0_0_1_n_n 128 rfl rfl).symm j) = ix2 j q :=
    funext fun a => Fin.ext (by
      match a with
      | ⟨0, _⟩ =>
        exact (dot_S10000x128_S128x128_S10000x128_1_0_0_1_n_n.rhsIdx_val_of_single rfl (ix2 p q) _).trans hj
      | ⟨1, _⟩ =>
        show (dot_S10000x128_S128x128_S10000x128_1_0_0_1_n_n.rhsIdx (ix2 p q) _ 1).val = q.val
        unfold DotDims.rhsIdx
        rw [dif_neg (show ¬(1 : Fin S128x128.rank) ∈ dot_S10000x128_S128x128_S10000x128_1_0_0_1_n_n.rhsBatch by decide),
          dif_pos (show (1 : Fin S128x128.rank) ∈ dot_S10000x128_S128x128_S10000x128_1_0_0_1_n_n.rhsNonContracting by decide)]
        rfl)
  rw [el, er]

/-- The offsets of a whole-block access, as the constant function. -/
theorem zero_offsets : (![0, 0] : Fin 2 → Nat) = fun _ => 0 := funext fun a => by fin_cases a <;> rfl

/-- The array the region leaves: each row of the product of the two matrices, scaled by that row's entry of the column. -/
def scaledProduct (A : S100000x128.Idx → EReal) (B : S128x128.Idx → EReal) (s : S100000x1.Idx → EReal) :
    S100000x128.Idx → EReal :=
  fun i => (∑ j : Fin 128, A (ix2 (i 0 : Fin 100000) j) * B (ix2 j (i 1 : Fin 128))) * s (ix2 (i 0 : Fin 100000) (0 : Fin 1))

/-- The printed block index maps over the grid: the row blocks follow the grid point, every other block index is zero. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The array row that row `p` of the block of grid point `t` is. -/
def row (t : Fin cfg2.N) (p : Fin 10000) : Fin 100000 :=
  ⟨t.val * 10000 + p.val, by have h := t.isLt; have hN : cfg2.N = 10 := N_2; omega⟩

/-- Where an element of the left operand's block sits in its array. -/
theorem emb_lhs (t : Fin cfg2.N) (p : Fin 10000) (j : Fin 128) :
    ((cfg2.win 0).blk t).view.emb (ix2 p j) = ix2 (row t p) j := by
  obtain ⟨e0, e1, -⟩ := index_facts t
  funext a; apply Fin.ext
  match a with
  | ⟨0, _⟩ => show win2_0.index t (0 : Fin 2) * 10000 + 1 * p.val = t.val * 10000 + p.val; omega
  | ⟨1, _⟩ => show win2_0.index t (1 : Fin 2) * 128 + 1 * j.val = j.val; omega

/-- The right operand's one block is its whole array. -/
theorem emb_rhs (t : Fin cfg2.N) (j : Fin 128) (q : Fin 128) :
    ((cfg2.win 1).blk t).view.emb (ix2 j q) = ix2 j q := by
  obtain ⟨-, -, e2, e3, -⟩ := index_facts t
  funext a; apply Fin.ext
  match a with
  | ⟨0, _⟩ => show win2_1.index t (0 : Fin 2) * 128 + 1 * j.val = j.val; omega
  | ⟨1, _⟩ => show win2_1.index t (1 : Fin 2) * 128 + 1 * q.val = q.val; omega

/-- Where an element of the column's block sits in its array. -/
theorem emb_col (t : Fin cfg2.N) (p : Fin 10000) (z : Fin 1) :
    ((cfg2.win 2).blk t).view.emb (ix2 p z) = ix2 (row t p) z := by
  obtain ⟨-, -, -, -, e4, e5, -⟩ := index_facts t
  funext a; apply Fin.ext
  match a with
  | ⟨0, _⟩ => show win2_2.index t (0 : Fin 2) * 10000 + 1 * p.val = t.val * 10000 + p.val; omega
  | ⟨1, _⟩ => show win2_2.index t (1 : Fin 2) * 1 + 1 * z.val = z.val; omega

/-- Where an element of the output's block sits in its array. -/
theorem emb_out (t : Fin cfg2.N) (p : Fin 10000) (q : Fin 128) :
    ((cfg2.win 3).blk t).view.emb (ix2 p q) = ix2 (row t p) q := by
  obtain ⟨-, -, -, -, -, -, e6, e7⟩ := index_facts t
  funext a; apply Fin.ext
  match a with
  | ⟨0, _⟩ => show win2_3.index t (0 : Fin 2) * 10000 + 1 * p.val = t.val * 10000 + p.val; omega
  | ⟨1, _⟩ => show win2_3.index t (1 : Fin 2) * 128 + 1 * q.val = q.val; omega

variable (V : (c : Dev nD) → (b : Ref sig .tc) → Buf (Elt Ideal) ((c : Thread nD τ).loc b))

/-- The left operand's block, read at an index. -/
theorem read_lhs (c : Dev nD) (t : Fin cfg2.N) (p : Fin 10000) (j : Fin 128) :
    iblk2 (F := Ideal) V c 0 t (ix2 p j) = V c main_v31 (ix2 (row t p) j) := by
  show V c main_v31 (((cfg2.win 0).blk t).view.emb (ix2 p j)) = _
  rw [emb_lhs]

/-- The right operand's block, read at an index. -/
theorem read_rhs (c : Dev nD) (t : Fin cfg2.N) (j : Fin 128) (q : Fin 128) :
    iblk2 (F := Ideal) V c 1 t (ix2 j q) = V c main_v32 (ix2 j q) := by
  show V c main_v32 (((cfg2.win 1).blk t).view.emb (ix2 j q)) = _
  rw [emb_rhs]

/-- The column's block, read at an index. -/
theorem read_col (c : Dev nD) (t : Fin cfg2.N) (p : Fin 10000) (z : Fin 1) :
    iblk2 (F := Ideal) V c 2 t (ix2 p z) = V c main_v15 (ix2 (row t p) z) := by
  show V c main_v15 (((cfg2.win 2).blk t).view.emb (ix2 p z)) = _
  rw [emb_col]

/-- What grid point `t` writes back is its block of the scaled product of the arrays as the region finds them. -/
theorem flushed_eq (c : Dev nD) (t : Fin cfg2.N) :
    (dat2 (F := Ideal) V c).flushed 3 t
      = ((cfg2.win 3).blk t).view.read (Elt Ideal) (scaledProduct (V c main_v31) (V c main_v32) (V c main_v15)) := by
  show (cfg2.win 3).cut (grid2.coords t) ((dat2 (F := Ideal) V c).after 3 t) = _
  rw [after2_3]
  unfold out2_3
  rw [View.canon_unit_zero zero_offsets]
  simp only [View.ld_unit_zero (S := S10000x128) zero_offsets, View.ld_unit_zero (S := S128x128) zero_offsets, View.ld_unit_zero (S := S10000x1) zero_offsets]
  funext y
  obtain ⟨p, q, rfl⟩ : ∃ (p : Fin 10000) (q : Fin 128), y = ix2 p q := ⟨y 0, y 1, eq_ix2 (n0 := 10000) (n1 := 128) y⟩
  show k2_pay1 (F := Ideal) (iblk2 V c 0 t) (iblk2 V c 1 t) (iblk2 V c 2 t) (ix2 p q)
    = scaledProduct (V c main_v31) (V c main_v32) (V c main_v15) (((cfg2.win 3).blk t).view.emb (ix2 p q))
  rw [payload_apply, emb_out]
  simp only [read_lhs, read_rhs, read_col]
  rfl

/-- An index of the array is in the block of grid point `t` iff each coordinate is in the block's range on its axis. -/
theorem mem_blk (t : Fin cfg2.N) (i : S100000x128.Idx) :
    i ∈ ((cfg2.win 3).blk t).view.set ↔ ∀ a : Fin 2, win2_3.index t a * S10000x128.size a ≤ (i a).val
      ∧ (i a).val < win2_3.index t a * S10000x128.size a + S10000x128.size a := by
  show i ∈ ((View.whole main_v33).slice (win2_3.rect t)).set ↔ _
  rw [View.set_slice_whole, Rect.mem_set_unit]
  exact Iff.rfl

/-- Every index of the array is in the block of the grid point its row falls in. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 10 := N_2
  obtain ⟨t, ht⟩ : ∃ t : Fin cfg2.N, t.val = (i 0).val / 10000 := ⟨⟨(i 0).val / 10000, by omega⟩, rfl⟩
  obtain ⟨-, -, -, -, -, -, e6, e7⟩ := index_facts t
  refine ⟨t, flush2_3 t, ?_⟩
  rw [mem_blk]
  intro a
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 128 ≤ (i 1).val ∧ (i 1).val < win2_3.index t (1 : Fin 2) * 128 + 128
    omega

/-- The output array after the region is the scaled product of the arrays as the region finds them. -/
theorem out_eq (c : Dev nD) :
    (dat2 (F := Ideal) V c).arrAt 3 cfg2.N = scaledProduct (V c main_v31) (V c main_v32) (V c main_v15) :=
  (dat2 (F := Ideal) V c).arrAt_eq_of_cover 3 _ (fun t _ => flushed_eq V c t) cover

/-- The scaled product at an index. -/
theorem scaledProduct_apply (A : S100000x128.Idx → EReal) (B : S128x128.Idx → EReal) (s : S100000x1.Idx → EReal)
    (r : Fin 100000) (k : Fin 128) :
    scaledProduct A B s (ix2 r k) = (∑ j : Fin 128, A (ix2 r j) * B (ix2 j k)) * s (ix2 r 0) := rfl

/-- The output array after the region, at an index: the row of the left array times the column of the right one,
    scaled by the row's entry of the column array. -/
theorem out_apply (c : Dev nD) (r : Fin 100000) (k : Fin 128) :
    (dat2 (F := Ideal) V c).arrAt 3 cfg2.N (ix2 r k)
      = (let A : S100000x128.Idx → EReal := V c main_v31
         let B : S128x128.Idx → EReal := V c main_v32
         let s : S100000x1.Idx → EReal := V c main_v15
         (∑ j : Fin 128, A (ix2 r j) * B (ix2 j k)) * s (ix2 r 0)) := by
  rw [out_eq]
  rfl

end Cert.KernelIdeal.Reg2

end
-- ==== Proof.Reg3.lean ====
import proofs.«126992_j16406775071044_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
# The scale and bias launch, read at an index

The launch walks the rows of a `100000 × 128` array in 20 blocks of 5000 rows. At each block it multiplies every
row by that row's entry of a `100000 × 1` column, adds a `1 × 128` row. The result is that
every entry `(r, k)` of the output array is `x r k * s r + b k`, whatever the arrays hold when the launch is entered.
-/

set_option maxRecDepth 16384

noncomputable section

namespace Cert.KernelIdeal.Reg3

open Cert.KernelIdeal Cert.KernelIdeal.Gen Idealize.ShloMosaic Idealize.ShloMosaic.TcCoe Idealize.SL.Sem
open Idealize.ShloMosaic.Pipeline (Dat)
open Idealize.ShloMosaic.ValueIdx

/-! ## One block: the body's arithmetic at an entry of the block -/

/-- A column block `5000 × 1` spread along the 128 columns reads, at `(p, k)`, the column's entry of row `p`. -/
theorem column_spread_apply (v : FVec Ideal S5000x1 .f32) (p : Fin 5000) (k : Fin 128) :
    broadcastTo S5000x128 v broadcasts_S5000x1_S5000x128 (ix2 p k) = v (ix2 p (0 : Fin 1)) := by
  refine broadcastTo_apply v broadcasts_S5000x1_S5000x128 (ix2 p k) (ix2 p (0 : Fin 1)) fun ax => ?_
  match ax with
  | ⟨0, _⟩ =>
    show p.val = if (5000 : ℕ) = 1 then 0 else p.val
    rw [if_neg (by omega)]
  | ⟨1, _⟩ =>
    show (0 : ℕ) = if (1 : ℕ) = 1 then 0 else k.val
    rw [if_pos rfl]

/-- The body's result at entry `(p, k)` of a block: the block's entry times the column's entry of row `p`, plus the
    row's entry of column `k`. -/
theorem body_apply (x0 : FVec Ideal S5000x128 .f32) (x1 : FVec Ideal S5000x1 .f32) (x2 : FVec Ideal S1x128 .f32)
    (p : Fin 5000) (k : Fin 128) :
    k3_pay1 (F := Ideal) x0 x1 x2 (ix2 p k)
      = x0 (ix2 p k) * x1 (ix2 p (0 : Fin 1)) + x2 (ix2 (0 : Fin 1) k) := by
  unfold k3_pay1
  simp only [shapeCast_self]
  refine (addf_apply _ _ (ix2 p k)).trans ?_
  refine congrArg₂ (· + ·) ?_ (broadcastTo_1b_ab_apply x2 broadcasts_S1x128_S5000x128 p k)
  refine (mulf_apply _ _ (ix2 p k)).trans ?_
  exact congrArg (x0 (ix2 p k) * ·) (column_spread_apply x1 p k)

/-! ## The whole array -/

/-- The array the launch computes from the three arrays it reads: entry `(r, k)` is
    `x (r, k) * s (r, 0) + b (0, k)`. -/
def result (x : S100000x128.Idx → Elt Ideal .f32) (s : S100000x1.Idx → Elt Ideal .f32) (b : S1x128.Idx → Elt Ideal .f32) :
    S100000x128.Idx → Elt Ideal .f32 :=
  fun i => x i * s (ix2 (⟨(i 0).val, idx2_lt0 i⟩ : Fin 100000) (0 : Fin 1)) + b (ix2 (0 : Fin 1) (⟨(i 1).val, idx2_lt1 i⟩ : Fin 128))

theorem result_apply (x : S100000x128.Idx → Elt Ideal .f32) (s : S100000x1.Idx → Elt Ideal .f32) (b : S1x128.Idx → Elt Ideal .f32)
    (r : Fin 100000) (k : Fin 128) :
    result x s b (ix2 r k) = x (ix2 r k) * s (ix2 r (0 : Fin 1)) + b (ix2 (0 : Fin 1) k) := rfl

theorem zero_offsets : (![0, 0] : Fin 2 → Nat) = fun _ => 0 := funext fun a => by fin_cases a <;> rfl

/-- The block index maps over the 20 grid points: the two row-blocked inputs and the output are at block `(t, 0)`,
    the bias row at block `(0, 0)`. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Every row block is some grid point's. -/
theorem block_onto : ∀ q : Fin 20, ∃ t : Fin cfg3.N, win3_3.index t = ![q.val, 0] :=
  (by decide +kernel : ∀ q : Fin 20, ∃ t : Fin grid3.N, win3_3.index t = ![q.val, 0])

section
variable (V : (c : Dev nD) → (b : Ref sig .tc) → Buf (Elt Ideal) ((c : Thread nD τ).loc b))

/-- Entry `y` of the first input's block at point `t` is entry `(5000 t + y₀, y₁)` of its array. -/
theorem block0_apply (c : Dev nD) (t : Fin cfg3.N) (y : S5000x128.Idx) (i : S100000x128.Idx)
    (h0 : (i 0).val = t.val * 5000 + (y 0).val) (h1 : (i 1).val = (y 1).val) :
    (iblk3 V c 0 t : Vec Ideal S5000x128 .f32) y = (V c main_v43 : S100000x128.Idx → Elt Ideal .f32) i := by
  obtain ⟨e0, e1, -⟩ := block_indices t
  unfold iblk3
  rw [View.read_apply]
  show V c main_v43 _ = V c main_v43 _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 128 + 1 * (y 1).val = (i 1).val; rw [e1, h1]; omega

/-- Entry `y` of the column's block at point `t` is entry `(5000 t + y₀, y₁)` of the column. -/
theorem block1_apply (c : Dev nD) (t : Fin cfg3.N) (y : S5000x1.Idx) (i : S100000x1.Idx)
    (h0 : (i 0).val = t.val * 5000 + (y 0).val) (h1 : (i 1).val = (y 1).val) :
    (iblk3 V c 1 t : Vec Ideal S5000x1 .f32) y = (V c main_v15 : S100000x1.Idx → Elt Ideal .f32) i := by
  obtain ⟨-, -, e0, e1, -⟩ := block_indices t
  unfold iblk3
  rw [View.read_apply]
  show V c main_v15 _ = V c main_v15 _
  congr 1
  funext a
  apply Fin.ext
  match a with
  | ⟨0, _⟩ => show win3_1.index t (0 : Fin 2) * 5000 + 1 * (y 0).val = (i 0).val; rw [e0, h0]; omega
  | ⟨1, _⟩ => show win3_1.index t (1 : Fin 2) * 1 + 1 * (y 1).val = (i 1).val; rw [e1, h1]; omega

/-- The bias row's block at every point is the row itself. -/
theorem block2_apply (c : Dev nD) (t : Fin cfg3.N) (y : S1x128.Idx) (i : S1x128.Idx)
    (h0 : (i 0).val = (y 0).val) (h1 : (i 1).val = (y 1).val) :
    (iblk3 V c 2 t : Vec Ideal S1x128 .f32) y = (V c main_v44 : S1x128.Idx → Elt Ideal .f32) i := by
  obtain ⟨-, -, -, -, e0, e1, -⟩ := block_indices t
  unfold iblk3
  rw [View.read_apply]
  show V c main_v44 _ = V c main_v44 _
  congr 1
  funext a
  apply Fin.ext
  match a with
  | ⟨0, _⟩ => show win3_2.index t (0 : Fin 2) * 1 + 1 * (y 0).val = (i 0).val; rw [e0, h0]; omega
  | ⟨1, _⟩ => show win3_2.index t (1 : Fin 2) * 128 + 1 * (y 1).val = (i 1).val; rw [e1, h1]; omega

/-- What point `t` leaves in the output's buffer, at entry `(p, k)`: `result` at row `5000 t + p`, column `k`. -/
theorem left_apply (c : Dev nD) (t : Fin cfg3.N) (p : Fin 5000) (k : Fin 128) (i : S100000x128.Idx)
    (h0 : (i 0).val = t.val * 5000 + p.val) (h1 : (i 1).val = k.val) :
    out3_3 (F := Ideal) (iblk3 V c 0 t) (iblk3 V c 1 t) (iblk3 V c 2 t) (ix2 p k)
      = result (V c main_v43) (V c main_v15) (V c main_v44) i := by
  unfold out3_3
  rw [View.canon_unit_zero zero_offsets]
  simp only [View.ld_unit_zero (S := S5000x128) zero_offsets, View.ld_unit_zero (S := S5000x1) zero_offsets,
    View.ld_unit_zero (S := S1x128) zero_offsets]
  refine (body_apply (iblk3 V c 0 t) (iblk3 V c 1 t) (iblk3 V c 2 t) p k).trans ?_
  rw [block0_apply V c t (ix2 p k) i h0 h1,
    block1_apply V c t (ix2 p (0 : Fin 1)) (ix2 (⟨(i 0).val, idx2_lt0 i⟩ : Fin 100000) (0 : Fin 1)) h0 rfl,
    block2_apply V c t (ix2 (0 : Fin 1) k) (ix2 (0 : Fin 1) (⟨(i 1).val, idx2_lt1 i⟩ : Fin 128)) rfl h1]
  rfl

/-- What point `t` writes back is block `t` of `result`. -/
theorem written_back (c : Dev nD) (t : Fin cfg3.N) :
    (dat3 (F := Ideal) V c).flushed 3 t
      = ((cfg3.win 3).blk t).view.read (Elt Ideal) (result (V c main_v43) (V c main_v15) (V c main_v44)) := by
  show (cfg3.win 3).cut (grid3.coords t) ((dat3 V c).after 3 t) = _
  rw [after3_3]
  obtain ⟨-, -, -, -, -, -, e0, e1⟩ := block_indices t
  funext j
  obtain ⟨p, k, rfl⟩ : ∃ (p : Fin 5000) (k : Fin 128), j = ix2 p k := ⟨j 0, j 1, eq_ix2 j⟩
  show out3_3 (F := Ideal) (iblk3 V c 0 t) (iblk3 V c 1 t) (iblk3 V c 2 t) (ix2 p k)
      = result (V c main_v43) (V c main_v15) (V c main_v44) (((cfg3.win 3).blk t).view.emb (ix2 p k))
  refine left_apply V c t p k _ ?_ ?_
  · show win3_3.index t (0 : Fin 2) * 5000 + 1 * p.val = t.val * 5000 + p.val; rw [e0]; omega
  · show win3_3.index t (1 : Fin 2) * 128 + 1 * k.val = k.val; rw [e1]; omega

/-- An entry of the array is in point `t`'s block when each coordinate is in the block's range on its axis. -/
theorem mem_block (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v45).slice (win3_3.rect t)).set ↔ _
  rw [View.set_slice_whole, Rect.mem_set_unit]
  exact Iff.rfl

/-- Row `r` is in the block of point `r / 5000`: the 20 blocks cover the array. -/
theorem covered (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := block_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_block]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The output array after the launch is `result` of the arrays the launch found. -/
theorem out_eq (c : Dev nD) :
    (dat3 (F := Ideal) V c).arrAt 3 cfg3.N = result (V c main_v43) (V c main_v15) (V c main_v44) :=
  (dat3 (F := Ideal) V c).arrAt_eq_of_cover 3 (result (V c main_v43) (V c main_v15) (V c main_v44))
    (fun t _ => written_back V c t) covered

/-- THE LAUNCH AT AN ENTRY: after it, entry `(r, k)` of the output array is
    `x (r, k) * s (r, 0) + b (0, k)` of the arrays the launch found. -/
theorem out_apply (c : Dev nD) (r : Fin 100000) (k : Fin 128) :
    (dat3 (F := Ideal) V c).arrAt 3 cfg3.N (ix2 r k)
      = HAdd.hAdd (α := EReal) (β := EReal) (γ := EReal)
          (HMul.hMul (α := EReal) (β := EReal) (γ := EReal) (V c main_v43 (ix2 r k)) (V c main_v15 (ix2 r (0 : Fin 1))))
          (V c main_v44 (ix2 (0 : Fin 1) k)) := by
  rw [out_eq V c]
  rfl

end

end Cert.KernelIdeal.Reg3

end
-- ==== Proof.Reg4.lean ====
import proofs.«126992_j16406775071044_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! # The row-wise dot product: the value of region 4's output

The region reads two `[200000, 128]` arrays in blocks of `8000` rows and writes a `[200000, 1]` column: at each of its
`25` points the body multiplies the two blocks lane by lane, sums each row's `128` products from zero, and stores the
`8000` sums as a column. Here: the stored column at a row (`pay_apply`), each block row as a row of its array
(`iblk0_apply`, `iblk1_apply`, `oblk_row`), what a point writes back as a block of one whole-array function
(`flushed_eq`), the blocks filling the array (`cover`), and so the output array after the last point (`arr_eq`,
`out_apply`): row `e` holds `∑ j, x e j * y e j`. All at the ideal values, for any contents the region is entered with. -/

noncomputable section

namespace Cert.KernelIdeal.Reg4

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- An `[a]` array cast to the column `[a, 1]` reads, at `(i, u)`, the operand at `i`: both indices have row-major
    position `i`, the unit coordinate `u` being `0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index `r` of an `[8000, 128]` array summed along its lanes, with lane `j` put back, is `(r, j)`. -/
theorem lift_row (h : S8000x128.Reduces [1] S8000) (r : Fin 8000) (j : Fin 128) :
    h.lift (ix1 r) j = ix2 r j := by
  funext c
  match c with
  | ⟨0, _⟩ => exact Fin.ext rfl
  | ⟨1, _⟩ => exact Fin.ext rfl

/-- THE BODY'S RESULT AT A ROW: the dot product of the two blocks' rows — the lanes' products summed from the zero
    word, cast to a column. -/
theorem pay_apply (x0 x1 : Vec Ideal S8000x128 .f32) (r : Fin 8000) (u : Fin 1) :
    k4_pay1 (F := Ideal) x0 x1 (ix2 r u) = ∑ j : Fin 128, x0 (ix2 r j) * x1 (ix2 r j) := by
  unfold k4_pay1
  refine (shapeCast_a_a1_apply _ shapeCasts_S8000_S8000x1 r u).trans ?_
  refine (Ideal.multiReduction_add_single _ 0x00000000#32 reduces_S8000x128_S8000 (.inl rfl) rfl (ix1 r)).trans ?_
  refine Finset.sum_congr rfl fun j _ => ?_
  rw [lift_row reduces_S8000x128_S8000 r j, shapeCast_self, shapeCast_self]
  rfl

/-! ## From the blocks to the array -/

variable (V : (c : Dev nD) → (b : Ref sig .tc) → Buf (Elt Ideal) ((c : Thread nD τ).loc b))

theorem offset_zero : (![0, 0] : Fin 2 → Nat) = fun _ => 0 := funext fun a => by fin_cases a <;> rfl

/-- The row of the `[200000, 1]` output an index names, as a number below `200000`. -/
abbrev rowOf (i : S200000x1.Idx) : Fin 200000 := ⟨(i 0).val, idx2_lt0 i⟩

/-- THE WHOLE OUTPUT as one function of the two whole inputs: at row `e` the dot product of their rows `e`. -/
abbrev rowDot (a0 a1 : S200000x128.Idx → Elt Ideal .f32) : S200000x1.Idx → Elt Ideal .f32 :=
  fun i => ∑ j : Fin 128, a0 (ix2 (rowOf i) j) * a1 (ix2 (rowOf i) j)

/-- The three block index maps at a grid point: block row `t`, block column `0`. -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

theorem point_lt (t : Fin cfg4.N) : t.val < 25 := by
  have h : t.val < grid4.N := t.isLt
  rwa [N_4] at h

/-- Row `r`, lane `j` of the first input's block at point `t` is the array's row `8000 t + r`, lane `j`. -/
theorem iblk0_apply (c : Dev nD) (t : Fin cfg4.N) (r : Fin 8000) (j : Fin 128) :
    iblk4 (F := Ideal) V c 0 t (ix2 r j)
      = V c main_v54 (ix2 (⟨t.val * 8000 + r.val, by have := point_lt t; omega⟩ : Fin 200000) j) := by
  show V c main_v54 (((cfg4.win 0).blk t).view.emb (ix2 r j)) = _
  refine congrArg (V c main_v54) (funext fun a => Fin.ext ?_)
  obtain ⟨e0, e1, -, -, -, -⟩ := index_facts t
  match a with
  | ⟨0, _⟩ => show win4_0.index t (0 : Fin 2) * 8000 + 1 * r.val = t.val * 8000 + r.val; omega
  | ⟨1, _⟩ => show win4_0.index t (1 : Fin 2) * 128 + 1 * j.val = j.val; omega

/-- The same for the second input. -/
theorem iblk1_apply (c : Dev nD) (t : Fin cfg4.N) (r : Fin 8000) (j : Fin 128) :
    iblk4 (F := Ideal) V c 1 t (ix2 r j)
      = V c main_v63 (ix2 (⟨t.val * 8000 + r.val, by have := point_lt t; omega⟩ : Fin 200000) j) := by
  show V c main_v63 (((cfg4.win 1).blk t).view.emb (ix2 r j)) = _
  refine congrArg (V c main_v63) (funext fun a => Fin.ext ?_)
  obtain ⟨-, -, e0, e1, -, -⟩ := index_facts t
  match a with
  | ⟨0, _⟩ => show win4_1.index t (0 : Fin 2) * 8000 + 1 * r.val = t.val * 8000 + r.val; omega
  | ⟨1, _⟩ => show win4_1.index t (1 : Fin 2) * 128 + 1 * j.val = j.val; omega

/-- Row `r` of the output's block at point `t` is the array's row `8000 t + r`. -/
theorem oblk_row (t : Fin cfg4.N) (r : Fin 8000) (u : Fin 1) :
    rowOf (((cfg4.win 2).blk t).view.emb (ix2 r u))
      = (⟨t.val * 8000 + r.val, by have := point_lt t; omega⟩ : Fin 200000) := by
  obtain ⟨-, -, -, -, e0, -⟩ := index_facts t
  apply Fin.ext
  show win4_2.index t (0 : Fin 2) * 8000 + 1 * r.val = t.val * 8000 + r.val
  omega

/-- The whole-array function read through the output's block at point `t`: the dot product of rows `8000 t + r`. -/
theorem rowDot_blk (a0 a1 : S200000x128.Idx → Elt Ideal .f32) (t : Fin cfg4.N) (r : Fin 8000) (u : Fin 1) :
    rowDot a0 a1 (((cfg4.win 2).blk t).view.emb (ix2 r u))
      = ∑ j : Fin 128, a0 (ix2 (⟨t.val * 8000 + r.val, by have := point_lt t; omega⟩ : Fin 200000) j)
          * a1 (ix2 (⟨t.val * 8000 + r.val, by have := point_lt t; omega⟩ : Fin 200000) j) := by
  show ∑ j : Fin 128, a0 (ix2 (rowOf (((cfg4.win 2).blk t).view.emb (ix2 r u))) j)
      * a1 (ix2 (rowOf (((cfg4.win 2).blk t).view.emb (ix2 r u))) j) = _
  rw [oblk_row t r u]

/-- WHAT POINT `t` WRITES BACK is block `t` of the whole-array function of the inputs as the region finds them. -/
theorem flushed_eq (c : Dev nD) (t : Fin cfg4.N) :
    (dat4 (F := Ideal) V c).flushed 2 t
      = ((cfg4.win 2).blk t).view.read (Elt Ideal) (rowDot (V c main_v54) (V c main_v63)) := by
  show (cfg4.win 2).cut (grid4.coords t) ((dat4 V c).after 2 t) = _
  rw [after4_2]
  unfold out4_2
  rw [View.canon_unit_zero offset_zero]
  simp only [View.ld_unit_zero (S := S8000x128) offset_zero]
  funext y
  obtain ⟨r, u, rfl⟩ : ∃ (r : Fin 8000) (u : Fin 1), y = ix2 r u := ⟨y 0, y 1, eq_ix2 y⟩
  show k4_pay1 (F := Ideal) (iblk4 V c 0 t) (iblk4 V c 1 t) (ix2 r u)
    = rowDot (V c main_v54) (V c main_v63) (((cfg4.win 2).blk t).view.emb (ix2 r u))
  rw [pay_apply, rowDot_blk]
  exact Finset.sum_congr rfl fun j _ => by rw [iblk0_apply V c t r j, iblk1_apply V c t r j]

/-- An index of the output array is in point `t`'s block iff each coordinate is in the block's range on its axis. -/
theorem mem_blk (t : Fin cfg4.N) (i : S200000x1.Idx) :
    i ∈ ((cfg4.win 2).blk t).view.set ↔ ∀ a : Fin 2, win4_2.index t a * S8000x1.size a ≤ (i a).val
      ∧ (i a).val < win4_2.index t a * S8000x1.size a + S8000x1.size a := by
  show i ∈ ((View.whole main_v64).slice (win4_2.rect t)).set ↔ _
  rw [View.set_slice_whole, Rect.mem_set_unit]
  exact Iff.rfl

/-- THE BLOCKS FILL THE ARRAY: row `e` is in the block of point `e / 8000`. -/
theorem cover (i : S200000x1.Idx) :
    ∃ t : Fin cfg4.N, (cfg4.win 2).flush t = true ∧ i ∈ ((cfg4.win 2).blk t).view.set := by
  have hi0 : (i 0).val < 200000 := idx2_lt0 i
  have hi1 : (i 1).val < 1 := idx2_lt1 i
  have hN : (i 0).val / 8000 < grid4.N := by rw [N_4]; omega
  refine ⟨⟨(i 0).val / 8000, hN⟩, flush4_2 _, ?_⟩
  rw [mem_blk]
  obtain ⟨-, -, -, -, e0, e1⟩ := index_facts ⟨(i 0).val / 8000, hN⟩
  have e0' : win4_2.index ⟨(i 0).val / 8000, hN⟩ (0 : Fin 2) = (i 0).val / 8000 := e0
  intro a
  match a with
  | ⟨0, _⟩ =>
    show win4_2.index ⟨(i 0).val / 8000, hN⟩ (0 : Fin 2) * 8000 ≤ (i 0).val
      ∧ (i 0).val < win4_2.index ⟨(i 0).val / 8000, hN⟩ (0 : Fin 2) * 8000 + 8000
    omega
  | ⟨1, _⟩ =>
    show win4_2.index ⟨(i 0).val / 8000, hN⟩ (1 : Fin 2) * 1 ≤ (i 1).val
      ∧ (i 1).val < win4_2.index ⟨(i 0).val / 8000, hN⟩ (1 : Fin 2) * 1 + 1
    omega

/-- THE OUTPUT ARRAY after the region's last point: the row-wise dot product of the two inputs as the region finds
    them. -/
theorem arr_eq (c : Dev nD) :
    (dat4 (F := Ideal) V c).arrAt 2 cfg4.N = rowDot (V c main_v54) (V c main_v63) :=
  (dat4 (F := Ideal) V c).arrAt_eq_of_cover 2 (rowDot (V c main_v54) (V c main_v63))
    (fun t _ => flushed_eq V c t) cover

/-- THE REGION'S VALUE: row `e` of the output is the dot product of rows `e` of the two inputs. -/
theorem out_apply (c : Dev nD) (e : Fin 200000) :
    (dat4 (F := Ideal) V c).arrAt 2 cfg4.N (ix2 e 0)
      = ∑ j : Fin 128, (HMul.hMul : Elt Ideal .f32 → Elt Ideal .f32 → Elt Ideal .f32)
          (V c main_v54 (ix2 e j)) (V c main_v63 (ix2 e j)) :=
  congrFun (arr_eq V c) (ix2 e 0)

end Cert.KernelIdeal.Reg4

end
-- ==== Proof.KValue.lean ====
/-
  The idealized kernel's result as the network's score.

  Launch by launch, with  c r  the factor of node r  and  layer  the normalised aggregation over the edges:
    launch 0 writes  (x0 · w1)[r, k] · c r;  the host gathers its rows along the sources and adds them along the targets;
    launch 1 scales the sums by c r, adds the bias and clips below at zero: the hidden layer;
    launch 2 writes  (hidden · w2)[r, k] · c r;  the host aggregates again;
    launch 3 scales by c r and adds the bias: the output layer;
    the host gathers the output rows of the two nodes of every scored pair, and launch 4 takes their dot product.
  A change of float format is the identity on extended reals, so the narrow matmul operands are the arrays themselves.
-/
import proofs.«126992_j16406775071044_2_alg».proof.Proof.KHost
import proofs.«126992_j16406775071044_2_alg».proof.Proof.Net
import proofs.«126992_j16406775071044_2_alg».proof.Proof.Reg0
import proofs.«126992_j16406775071044_2_alg».proof.Proof.Reg1
import proofs.«126992_j16406775071044_2_alg».proof.Proof.Reg2
import proofs.«126992_j16406775071044_2_alg».proof.Proof.Reg3
import proofs.«126992_j16406775071044_2_alg».proof.Proof.Reg4
import Idealize.ShloMosaic.Lib.ValueIdx
import Idealize.ShloMosaic.Lib.ValueLayout
import Idealize.ShloMosaic.Lib.Pipeline.Value

set_option maxRecDepth 16384

noncomputable section

namespace Cert.KernelIdeal.KValue

open Cert.KernelIdeal Cert.KernelIdeal.Gen Cert.KernelIdeal.HostSide
open Idealize.ShloMosaic Idealize.ShloMosaic.TcCoe Idealize.SL.Sem Idealize.ShloMosaic.ValueIdx
open Cert.ScatterGather Cert.GraphMean Cert.Gcn Cert.Net

/-! ## Casts between a vector and a one-column / one-row matrix, read at an index -/

theorem cast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

theorem cast_uncol_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

theorem hN : 0 < 100000 := by decide

variable (m : (ℓ : Loc nD τ sig) → Buf (Elt Ideal) ℓ) (ρ : Dev nD → PrngReg) (c : Dev nD)

/-- The argument arrays, as functions of an index. -/
abbrev a0 : (⟨S100000x128, .f32⟩ : BufTy).Contents (Elt Ideal) := m ((c : Thread nD τ).loc main_arg0)
abbrev a1 : (⟨S2x1000000, .i32⟩ : BufTy).Contents (Elt Ideal) := m ((c : Thread nD τ).loc main_arg1)
abbrev a2 : (⟨S2x200000, .i32⟩ : BufTy).Contents (Elt Ideal) := m ((c : Thread nD τ).loc main_arg2)
abbrev a3 : (⟨S128x128, .f32⟩ : BufTy).Contents (Elt Ideal) := m ((c : Thread nD τ).loc main_arg3)
abbrev a4 : (⟨S128, .f32⟩ : BufTy).Contents (Elt Ideal) := m ((c : Thread nD τ).loc main_arg4)
abbrev a5 : (⟨S128x128, .f32⟩ : BufTy).Contents (Elt Ideal) := m ((c : Thread nD τ).loc main_arg5)
abbrev a6 : (⟨S128, .f32⟩ : BufTy).Contents (Elt Ideal) := m ((c : Thread nD τ).loc main_arg6)

/-- The factor of node `r`. -/
def fac (r : Fin 100000) : EReal := dinv (F := Ideal) (a1 m c) (ix1 r)

/-- The factor column read at row `r`. -/
theorem dinvCol_apply (r : Fin 100000) (u : Fin 1) : dinvCol (F := Ideal) (a1 m c) (ix2 r u) = fac m c r :=
  cast_col_apply _ _ r u

/-- The first layer's product  x0 · w1. -/
def xw1 (r : Fin 100000) (k : Fin 128) : EReal := ∑ j : Fin 128, a0 m c (ix2 r j) * a3 m c (ix2 j k)

/-- The hidden layer. -/
def hid (r : Fin 100000) (k : Fin 128) : EReal :=
  hiddenLayer hN (fac m c) (srcCol (F := Ideal) (a1 m c)) (dstCol (F := Ideal) (a1 m c)) (a0 m c) (a3 m c) (fun k => a4 m c (ix1 k)) r k

/-- The output layer. -/
def out (r : Fin 100000) (k : Fin 128) : EReal :=
  outputLayer hN (fac m c) (srcCol (F := Ideal) (a1 m c)) (dstCol (F := Ideal) (a1 m c)) (a0 m c) (a3 m c) (fun k => a4 m c (ix1 k))
    (a5 m c) (fun k => a6 m c (ix1 k)) r k

/-- The zero word broadcast to a node array is the zero array. -/
theorem zeros_eq : (broadcastInDim S100000x128 ![] bcast_S_S100000x128 (constant (F := Ideal) S_ .f32 0x00000000#32)
    : FVec Ideal ⟨2, ![100000, 128]⟩ .f32) = fun _ => 0 := bcast_zero_f32 _

/-- Aggregating a node array that carries the factor (`h[r, k] = xw r k · c r`), then scaling by the factor: the layer. -/
theorem aggregate_apply (h : (⟨S100000x128, .f32⟩ : BufTy).Contents (Elt Ideal)) (xw : Fin 100000 → Fin 128 → EReal)
    (hh : ∀ r k, h (ix2 r k) = xw r k * fac m c r) (r : Fin 100000) (k : Fin 128) :
    aggregate (F := Ideal) (a1 m c) h (ix2 r k) * fac m c r
      = layer hN (fac m c) (srcCol (F := Ideal) (a1 m c)) (dstCol (F := Ideal) (a1 m c)) xw r k :=
  agg_of_prescaled (N := 100000) (M := 1100000) (C := 128) (w := 32) hN
    gather_S100000x128_S1100000x1_S1100000x128_1_0_n_n_0_1_1128 gather_S100000x128_S1100000x1_S1100000x128_1_0_n_n_0_1_1128.wf rfl
    scatter_S100000x128_S1100000x1_S1100000x128_1_0_0_1 scatter_S100000x128_S1100000x1_S1100000x128_1_0_0_1.wf rfl
    _ (zeros_eq) h xw (fac m c) hh (srcCol (F := Ideal) (a1 m c)) (dstCol (F := Ideal) (a1 m c)) r k

/-! ## Launch by launch -/

/-- Launch 0's output: the first product with the factor on every row. -/
theorem hs1_apply (r : Fin 100000) (k : Fin 128) :
    (W4 m ρ c (Proc.devRef .tc main_v18) : (⟨S100000x128, .f32⟩ : BufTy).Contents (Elt Ideal)) (ix2 r k) = xw1 m c r k * fac m c r := by
  have e := congrFun (Reg0.out_eq (V3 m ρ) c) (ix2 r k)
  rw [show V3 m ρ c main_v16 = _ from W3_v16 m ρ c,
    show V3 m ρ c main_v17 = _ from W3_v17 m ρ c,
    show (V3 m ρ c main_v15 : (⟨S100000x1, .f32⟩ : BufTy).Contents (Elt Ideal)) = dinvCol (F := Ideal) (a1 m c) from W3_v15 m ρ c,
    Reg0.scaledProduct_apply, dinvCol_apply] at e
  exact (congrFun (W4_arr m ρ c 3) (ix2 r k)).trans e

/-- Launch 1's output: the hidden layer. -/
theorem x1_apply (r : Fin 100000) (k : Fin 128) :
    (W6 m ρ c (Proc.devRef .tc main_v30) : (⟨S100000x128, .f32⟩ : BufTy).Contents (Elt Ideal)) (ix2 r k) = hid m c r k := by
  have e := congrFun (Reg1.out_eq (V5 m ρ) c) (ix2 r k)
  rw [show (V5 m ρ c main_v28 : (⟨S100000x128, .f32⟩ : BufTy).Contents (Elt Ideal)) = aggregate (F := Ideal) (a1 m c) (W4 m ρ c (Proc.devRef .tc main_v18)) from W5_v28 m ρ c,
    show (V5 m ρ c main_v15 : (⟨S100000x1, .f32⟩ : BufTy).Contents (Elt Ideal)) = dinvCol (F := Ideal) (a1 m c) from W5_v15 m ρ c,
    show (V5 m ρ c main_v29 : (⟨S1x128, .f32⟩ : BufTy).Contents (Elt Ideal)) = shapeCast S1x128 (a4 m c) shapeCasts_S128_S1x128 from W5_v29 m ρ c,
    Reg1.result_apply, dinvCol_apply, shapeCast_a_1a_apply, aggregate_apply m c _ (xw1 m c) (hs1_apply m ρ c)] at e
  exact (congrFun (W6_arr m ρ c 3) (ix2 r k)).trans e

/-- Launch 2's output: the second product with the factor on every row. -/
theorem hs2_apply (r : Fin 100000) (k : Fin 128) :
    (W8 m ρ c (Proc.devRef .tc main_v33) : (⟨S100000x128, .f32⟩ : BufTy).Contents (Elt Ideal)) (ix2 r k)
      = (∑ j : Fin 128, hid m c r j * a5 m c (ix2 j k)) * fac m c r := by
  have e := congrFun (Reg2.out_eq (V7 m ρ) c) (ix2 r k)
  rw [show V7 m ρ c main_v31 = _ from W7_v31 m ρ c,
    show V7 m ρ c main_v32 = _ from W7_v32 m ρ c,
    show (V7 m ρ c main_v15 : (⟨S100000x1, .f32⟩ : BufTy).Contents (Elt Ideal)) = dinvCol (F := Ideal) (a1 m c) from W7_v15 m ρ c,
    Reg2.scaledProduct_apply, dinvCol_apply] at e
  refine ((congrFun (W8_arr m ρ c 3) (ix2 r k)).trans e).trans ?_
  refine congrArg (· * fac m c r) (Finset.sum_congr rfl fun j _ => ?_)
  exact congrArg (· * a5 m c (ix2 j k)) (x1_apply m ρ c r j)

/-- Launch 3's output: the output layer. -/
theorem x2_apply (r : Fin 100000) (k : Fin 128) :
    (W10 m ρ c (Proc.devRef .tc main_v45) : (⟨S100000x128, .f32⟩ : BufTy).Contents (Elt Ideal)) (ix2 r k) = out m c r k := by
  have e := congrFun (Reg3.out_eq (V9 m ρ) c) (ix2 r k)
  rw [show (V9 m ρ c main_v43 : (⟨S100000x128, .f32⟩ : BufTy).Contents (Elt Ideal)) = aggregate (F := Ideal) (a1 m c) (W8 m ρ c (Proc.devRef .tc main_v33)) from W9_v43 m ρ c,
    show (V9 m ρ c main_v15 : (⟨S100000x1, .f32⟩ : BufTy).Contents (Elt Ideal)) = dinvCol (F := Ideal) (a1 m c) from W9_v15 m ρ c,
    show (V9 m ρ c main_v44 : (⟨S1x128, .f32⟩ : BufTy).Contents (Elt Ideal)) = shapeCast S1x128 (a6 m c) shapeCasts_S128_S1x128 from W9_v44 m ρ c,
    Reg3.result_apply, dinvCol_apply, shapeCast_a_1a_apply,
    aggregate_apply m c _ (fun r k => ∑ j : Fin 128, hid m c r j * a5 m c (ix2 j k)) (hs2_apply m ρ c)] at e
  exact (congrFun (W10_arr m ρ c 3) (ix2 r k)).trans e

/-- A gathered row of the output layer: the row of the pair's node. -/
theorem pair_row_apply (P : (⟨S200000x1, .i32⟩ : BufTy).Contents (Elt Ideal)) (e : Fin 200000) (j : Fin 128) :
    Host.gather gather_S100000x128_S200000x1_S200000x128_1_0_n_n_0_1_1128
        (W10 m ρ c (Proc.devRef .tc main_v45) : (⟨S100000x128, .f32⟩ : BufTy).Contents (Elt Ideal)) P (ix2 e j)
      = out m c (clampRow 100000 hN P e) j :=
  (gather_rows_at (N := 100000) (M := 200000) (C := 128) (w := 32) hN gather_S100000x128_S200000x1_S200000x128_1_0_n_n_0_1_1128.wf _ P e j).trans
    (x2_apply m ρ c _ j)

/-- THE KERNEL'S RESULT at pair `e`: the network's score. -/
theorem result_apply (e : Fin 200000) :
    (W13 m ρ c (Proc.devRef .tc main_v65) : (⟨S200000, .f32⟩ : BufTy).Contents (Elt Ideal)) (ix1 e)
      = score hN (fac m c) (srcCol (F := Ideal) (a1 m c)) (dstCol (F := Ideal) (a1 m c))
          (pairCol0 (F := Ideal) (a2 m c)) (pairCol1 (F := Ideal) (a2 m c))
          (a0 m c) (a3 m c) (fun k => a4 m c (ix1 k)) (a5 m c) (fun k => a6 m c (ix1 k)) e := by
  -- the two gathered arrays, as functions into the extended reals
  let g0 : S200000x128.Idx → EReal :=
    Host.gather gather_S100000x128_S200000x1_S200000x128_1_0_n_n_0_1_1128 (W10 m ρ c (Proc.devRef .tc main_v45) : (⟨S100000x128, .f32⟩ : BufTy).Contents (Elt Ideal)) (pairCol0 (F := Ideal) (a2 m c))
  let g1 : S200000x128.Idx → EReal :=
    Host.gather gather_S100000x128_S200000x1_S200000x128_1_0_n_n_0_1_1128 (W10 m ρ c (Proc.devRef .tc main_v45) : (⟨S100000x128, .f32⟩ : BufTy).Contents (Elt Ideal)) (pairCol1 (F := Ideal) (a2 m c))
  have e4 := congrFun (Reg4.arr_eq (V11 m ρ) c) (ix2 e (0 : Fin 1))
  rw [show V11 m ρ c main_v54 = _ from W11_v54 m ρ c, show V11 m ρ c main_v63 = _ from W11_v63 m ρ c] at e4
  have e5 : (W13 m ρ c (Proc.devRef .tc main_v65) : (⟨S200000, .f32⟩ : BufTy).Contents (Elt Ideal)) (ix1 e)
      = ∑ j : Fin 128, g0 (ix2 e j) * g1 (ix2 e j) := by
    rw [W13_v65, cast_uncol_apply]
    exact (congrFun (W12_arr m ρ c 2) (ix2 e (0 : Fin 1))).trans e4
  have hsum : (∑ j : Fin 128, g0 (ix2 e j) * g1 (ix2 e j))
      = score hN (fac m c) (srcCol (F := Ideal) (a1 m c)) (dstCol (F := Ideal) (a1 m c))
          (pairCol0 (F := Ideal) (a2 m c)) (pairCol1 (F := Ideal) (a2 m c))
          (a0 m c) (a3 m c) (fun k => a4 m c (ix1 k)) (a5 m c) (fun k => a6 m c (ix1 k)) e := by
    unfold score
    exact Finset.sum_congr rfl fun j _ =>
      congrArg₂ (fun a b : EReal => a * b) (pair_row_apply m ρ c _ e j) (pair_row_apply m ρ c _ e j)
  exact e5.trans hsum

end Cert.KernelIdeal.KValue

end
-- ==== Proof.RefValue.lean ====
/-
  The idealized reference's result as the network's score.

  The reference scales every gathered row by its edge's weight  c (s e) · c (d' e)  (the two factors gathered from the
  factor vector, d' the wrapped target) and adds the rows along the targets; for an edge that lands on node r the
  target is r itself, so the weight is  c (s e) · c r  and the non-negative real factor  c r  comes out of the sum:
  that is the normalised aggregation `layer`. Around it: the products  x0 · w1  and  hidden · w2  as plain sums, the
  biases broadcast along rows, the clip below at zero, and at the end the gathered output rows of each scored pair
  multiplied and summed along the features.
-/
import proofs.«126992_j16406775071044_2_alg».proof.Proof.RefRead
import proofs.«126992_j16406775071044_2_alg».proof.Proof.Net
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx
open Cert.ScatterGather Cert.GraphMean Cert.Gcn Cert.Net

theorem hN : 0 < 100000 := by decide

variable (x0 : (⟨S100000x128, .f32⟩ : BufTy).Contents (Elt Ideal)) (x1 : (⟨S2x1000000, .i32⟩ : BufTy).Contents (Elt Ideal)) (x2 : (⟨S2x200000, .i32⟩ : BufTy).Contents (Elt Ideal))
  (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))

/-! ## The factor -/

/-- The factor of node `r`. -/
def fac (r : Fin 100000) : EReal := val_main_v14 (F := Ideal) x1 (ix1 r)

/-- The factor is the inverse root of the degree where that is positive and zero elsewhere. -/
theorem fac_eq (r : Fin 100000) : fac x1 r = invSqrtDeg (val_main_v10 (F := Ideal) x1 (ix1 r)) := by
  unfold fac invSqrtDeg
  rw [val_main_v14_apply, val_main_v12_apply, val_main_v13_apply, val_main_call0_v1_apply, val_main_call0_v0_apply,
    val_main_cst_2_apply, val_main_v11_apply, val_main_cst_1_apply, Ideal.ofBits_def, Ideal.ofBits_zero_f32,
    Ideal.hostUnary_rsqrt_def]
  rfl

/-- A non-negative real, whatever the degree. -/
theorem fac_nonneg (r : Fin 100000) : 0 ≤ fac x1 r ∧ fac x1 r ≠ ⊤ := by
  rw [fac_eq]; exact invSqrtDeg_nonneg_ne_top _

/-! ## The index columns -/

/-- An edge that lands on node `r` has its wrapped, clamped target at `r`. -/
theorem wrapped_target (e : Fin 1100000) (r : Fin 100000)
    (hr : (val_main_v42 (F := Ideal) x1 (ix2 e (0 : Fin 1))).toInt = (r.val : Int)) :
    clampRow 100000 hN (val_main_v27 (F := Ideal) x1) e = r :=
  clampRow_of_wrapped (M := 1100000) (val_main_v42 (F := Ideal) x1) (val_main_v27 (F := Ideal) x1) e r rfl hr

theorem idx_col (e : Fin 1100000) (k : Fin 128) : idx_main_v39 (ix2 e k) = ix2 e (0 : Fin 1) :=
  funext fun a => Fin.ext (by match a with | ⟨0, _⟩ => rfl | ⟨1, _⟩ => rfl)
theorem idx_vec (e : Fin 1100000) (u : Fin 1) : idx_main_v38 (ix2 e u) = ix1 e :=
  funext fun a => Fin.ext (by match a with | ⟨0, _⟩ => rfl)
theorem idx_col' (e : Fin 1100000) (k : Fin 128) : idx_main_v57 (ix2 e k) = ix2 e (0 : Fin 1) :=
  funext fun a => Fin.ext (by match a with | ⟨0, _⟩ => rfl | ⟨1, _⟩ => rfl)
theorem idx_vec' (e : Fin 1100000) (u : Fin 1) : idx_main_v56 (ix2 e u) = ix1 e :=
  funext fun a => Fin.ext (by match a with | ⟨0, _⟩ => rfl)
theorem idx_bias (r : Fin 100000) (k : Fin 128) : idx_main_v44 (idx_main_v45 (ix2 r k)) = ix1 k :=
  funext fun a => Fin.ext (by match a with | ⟨0, _⟩ => rfl)
theorem idx_bias' (r : Fin 100000) (k : Fin 128) : idx_main_v62 (idx_main_v63 (ix2 r k)) = ix1 k :=
  funext fun a => Fin.ext (by match a with | ⟨0, _⟩ => rfl)
theorem idx_l (r : Fin 100000) (k : Fin 128) (j : Fin 128) : lidx_main_v30 (ix2 r k) j = ix2 r j :=
  funext fun a => Fin.ext (by match a with | ⟨0, _⟩ => rfl | ⟨1, _⟩ => rfl)
theorem idx_r (r : Fin 100000) (k : Fin 128) (j : Fin 128) : ridx_main_v30 (ix2 r k) j = ix2 j k :=
  funext fun a => Fin.ext (by match a with | ⟨0, _⟩ => rfl | ⟨1, _⟩ => rfl)
theorem idx_l' (r : Fin 100000) (k : Fin 128) (j : Fin 128) : lidx_main_v48 (ix2 r k) j = ix2 r j :=
  funext fun a => Fin.ext (by match a with | ⟨0, _⟩ => rfl | ⟨1, _⟩ => rfl)
theorem idx_r' (r : Fin 100000) (k : Fin 128) (j : Fin 128) : ridx_main_v48 (ix2 r k) j = ix2 j k :=
  funext fun a => Fin.ext (by match a with | ⟨0, _⟩ => rfl | ⟨1, _⟩ => rfl)
theorem idx_pair (e : Fin 200000) (j : Fin 128) : idx_main_v84 (ix1 e) j = ix2 e j :=
  funext fun a => Fin.ext (by match a with | ⟨0, _⟩ => rfl | ⟨1, _⟩ => rfl)

/-! ## The edge weights, constant along a row -/

theorem weights1_apply (e : Fin 1100000) (k : Fin 128) :
    val_main_v39 (F := Ideal) x1 (ix2 e k)
      = mulf (F := Ideal) (s := ⟨1, ![1100000]⟩) (φ := .f32)
          (Host.gather gather_S100000_S1100000x1_S1100000_n_0_n_n_0_1_1 (val_main_v14 (F := Ideal) x1 : FVec Ideal ⟨1, ![100000]⟩ .f32) (val_main_v20 (F := Ideal) x1))
          (Host.gather gather_S100000_S1100000x1_S1100000_n_0_n_n_0_1_1 (val_main_v14 (F := Ideal) x1 : FVec Ideal ⟨1, ![100000]⟩ .f32) (val_main_v27 (F := Ideal) x1)) (ix1 e) := by
  rw [val_main_v39_apply, val_main_v38_apply, idx_col, idx_vec]
  rfl

theorem weights2_apply (e : Fin 1100000) (k : Fin 128) :
    val_main_v57 (F := Ideal) x1 (ix2 e k)
      = mulf (F := Ideal) (s := ⟨1, ![1100000]⟩) (φ := .f32)
          (Host.gather gather_S100000_S1100000x1_S1100000_n_0_n_n_0_1_1 (val_main_v14 (F := Ideal) x1 : FVec Ideal ⟨1, ![100000]⟩ .f32) (val_main_v20 (F := Ideal) x1))
          (Host.gather gather_S100000_S1100000x1_S1100000_n_0_n_n_0_1_1 (val_main_v14 (F := Ideal) x1 : FVec Ideal ⟨1, ![100000]⟩ .f32) (val_main_v27 (F := Ideal) x1)) (ix1 e) := by
  rw [val_main_v57_apply, val_main_v56_apply, idx_col', idx_vec']
  rfl

/-! ## The two layers -/

/-- The first product at `(r, k)`. -/
theorem xw1_apply (r : Fin 100000) (k : Fin 128) :
    val_main_v30 (F := Ideal) x0 x3 (ix2 r k) = ∑ j : Fin 128, x0 (ix2 r j) * x3 (ix2 j k) := by
  rw [val_main_v30_apply]
  exact Finset.sum_congr rfl fun j _ => by rw [idx_l, idx_r]

/-- The first aggregation at `(r, k)`: the layer of the first product. -/
theorem layer1_apply (r : Fin 100000) (k : Fin 128) :
    val_main_v43 (F := Ideal) x0 x1 x3 (ix2 r k)
      = layer hN (fac x1) (val_main_v20 (F := Ideal) x1) (val_main_v42 (F := Ideal) x1)
          (fun r k => ∑ j : Fin 128, x0 (ix2 r j) * x3 (ix2 j k)) r k := by
  have h := layer_of_edge_weights (N := 100000) (M := 1100000) (C := 128) (w := 32) hN
    gather_S100000x128_S1100000x1_S1100000x128_1_0_n_n_0_1_1128 gather_S100000x128_S1100000x1_S1100000x128_1_0_n_n_0_1_1128.wf rfl scatter_S100000x128_S1100000x1_S1100000x128_1_0_0_1 scatter_S100000x128_S1100000x1_S1100000x128_1_0_0_1.wf rfl gather_S100000_S1100000x1_S1100000_n_0_n_n_0_1_1 gather_S100000_S1100000x1_S1100000_n_0_n_n_0_1_1.wf rfl
    (val_main_v41 (F := Ideal)) (bcast_zero_f32 _) (val_main_v30 (F := Ideal) x0 x3) (val_main_v14 (F := Ideal) x1) (fac x1)
    (fun _ => rfl) (fac_nonneg x1) (val_main_v20 (F := Ideal) x1) (val_main_v42 (F := Ideal) x1) (val_main_v27 (F := Ideal) x1)
    (wrapped_target x1) (val_main_v39 (F := Ideal) x1) (weights1_apply x1) r k
  rw [show (fun (r : Fin 100000) (k : Fin 128) => val_main_v30 (F := Ideal) x0 x3 (ix2 r k))
      = fun r k => ∑ j : Fin 128, x0 (ix2 r j) * x3 (ix2 j k) from funext fun r => funext fun k => xw1_apply x0 x3 r k] at h
  exact h

/-- The hidden layer at `(r, k)`. -/
theorem hidden_apply (r : Fin 100000) (k : Fin 128) :
    val_main_v47 (F := Ideal) x0 x1 x3 x4 (ix2 r k)
      = hiddenLayer hN (fac x1) (val_main_v20 (F := Ideal) x1) (val_main_v42 (F := Ideal) x1) x0 x3 (fun k => x4 (ix1 k)) r k := by
  rw [val_main_v47_apply, val_main_v46_apply, val_main_call1_v0_apply, val_main_call1_cst_apply, val_main_v45_apply,
    val_main_v44_apply, idx_bias, layer1_apply]
  unfold hiddenLayer
  rw [Ideal.ofBits_def, Ideal.ofBits_zero_f32]
  rfl

/-- The second product at `(r, k)`. -/
theorem xw2_apply (r : Fin 100000) (k : Fin 128) :
    val_main_v48 (F := Ideal) x0 x1 x3 x4 x5 (ix2 r k)
      = ∑ j : Fin 128, hiddenLayer hN (fac x1) (val_main_v20 (F := Ideal) x1) (val_main_v42 (F := Ideal) x1) x0 x3 (fun k => x4 (ix1 k)) r j * x5 (ix2 j k) := by
  rw [val_main_v48_apply]
  exact Finset.sum_congr rfl fun j _ => by rw [idx_l', idx_r', hidden_apply]

/-- The second aggregation at `(r, k)`: the layer of the second product. -/
theorem layer2_apply (r : Fin 100000) (k : Fin 128) :
    val_main_v61 (F := Ideal) x0 x1 x3 x4 x5 (ix2 r k)
      = layer hN (fac x1) (val_main_v20 (F := Ideal) x1) (val_main_v42 (F := Ideal) x1)
          (fun r k => ∑ j : Fin 128, hiddenLayer hN (fac x1) (val_main_v20 (F := Ideal) x1) (val_main_v42 (F := Ideal) x1) x0 x3 (fun k => x4 (ix1 k)) r j * x5 (ix2 j k)) r k := by
  have h := layer_of_edge_weights (N := 100000) (M := 1100000) (C := 128) (w := 32) hN
    gather_S100000x128_S1100000x1_S1100000x128_1_0_n_n_0_1_1128 gather_S100000x128_S1100000x1_S1100000x128_1_0_n_n_0_1_1128.wf rfl scatter_S100000x128_S1100000x1_S1100000x128_1_0_0_1 scatter_S100000x128_S1100000x1_S1100000x128_1_0_0_1.wf rfl gather_S100000_S1100000x1_S1100000_n_0_n_n_0_1_1 gather_S100000_S1100000x1_S1100000_n_0_n_n_0_1_1.wf rfl
    (val_main_v59 (F := Ideal)) (bcast_zero_f32 _) (val_main_v48 (F := Ideal) x0 x1 x3 x4 x5) (val_main_v14 (F := Ideal) x1) (fac x1)
    (fun _ => rfl) (fac_nonneg x1) (val_main_v20 (F := Ideal) x1) (val_main_v42 (F := Ideal) x1) (val_main_v27 (F := Ideal) x1)
    (wrapped_target x1) (val_main_v57 (F := Ideal) x1) (weights2_apply x1) r k
  rw [show (fun (r : Fin 100000) (k : Fin 128) => val_main_v48 (F := Ideal) x0 x1 x3 x4 x5 (ix2 r k))
      = _ from funext fun r => funext fun k => xw2_apply x0 x1 x3 x4 x5 r k] at h
  exact h

/-- The output layer at `(r, k)`. -/
theorem output_apply (r : Fin 100000) (k : Fin 128) :
    val_main_v64 (F := Ideal) x0 x1 x3 x4 x5 x6 (ix2 r k)
      = outputLayer hN (fac x1) (val_main_v20 (F := Ideal) x1) (val_main_v42 (F := Ideal) x1) x0 x3 (fun k => x4 (ix1 k)) x5 (fun k => x6 (ix1 k)) r k := by
  rw [val_main_v64_apply, val_main_v63_apply, val_main_v62_apply, idx_bias', layer2_apply]
  rfl

/-! ## The score -/

/-- A gathered row of the output layer: the row of the pair's node. -/
theorem pair_row_apply (P : (⟨S200000x1, .i32⟩ : BufTy).Contents (Elt Ideal)) (e : Fin 200000) (j : Fin 128) :
    Host.gather gather_S100000x128_S200000x1_S200000x128_1_0_n_n_0_1_1128 (val_main_v64 (F := Ideal) x0 x1 x3 x4 x5 x6) P (ix2 e j)
      = outputLayer hN (fac x1) (val_main_v20 (F := Ideal) x1) (val_main_v42 (F := Ideal) x1) x0 x3 (fun k => x4 (ix1 k)) x5 (fun k => x6 (ix1 k))
          (clampRow 100000 hN P e) j :=
  (gather_rows_at (N := 100000) (M := 200000) (C := 128) (w := 32) hN gather_S100000x128_S200000x1_S200000x128_1_0_n_n_0_1_1128.wf _ P e j).trans (output_apply x0 x1 x3 x4 x5 x6 _ j)

/-- THE REFERENCE'S RESULT at pair `e`: the network's score. -/
theorem result_apply (e : Fin 200000) :
    val_main_v84 (F := Ideal) x0 x1 x2 x3 x4 x5 x6 (ix1 e)
      = score hN (fac x1) (val_main_v20 (F := Ideal) x1) (val_main_v42 (F := Ideal) x1)
          (val_main_v72 (F := Ideal) x2) (val_main_v81 (F := Ideal) x2)
          x0 x3 (fun k => x4 (ix1 k)) x5 (fun k => x6 (ix1 k)) e := by
  rw [val_main_v84_apply, val_main_cst_16_apply, Ideal.ofBits_def, Ideal.ofBits_zero_f32, zero_add]
  unfold score
  refine Finset.sum_congr rfl fun j _ => ?_
  rw [idx_pair, val_main_v83_apply, Ideal.mulf_def]
  show Host.gather gather_S100000x128_S200000x1_S200000x128_1_0_n_n_0_1_1128 (val_main_v64 (F := Ideal) x0 x1 x3 x4 x5 x6) (val_main_v72 (F := Ideal) x2) (ix2 e j)
      * Host.gather gather_S100000x128_S200000x1_S200000x128_1_0_n_n_0_1_1128 (val_main_v64 (F := Ideal) x0 x1 x3 x4 x5 x6) (val_main_v81 (F := Ideal) x2) (ix2 e j) = _
  rw [pair_row_apply, pair_row_apply]

end Cert.ReferenceIdeal.RefValue

end
-- ==== Proof.Bridge.lean ====
/-
  The two idealized programs end with equal results.

  Both results are the network's score (the kernel's read off its launches, the reference's off its operations), over
  index columns, a factor vector and argument arrays that the two programs compute by the same operations from
  arguments that agree: the wrapped source column, the target column, the two columns of scored nodes and the factor
  of every node are the same functions of the edge arrays in both programs.
-/
import proofs.«126992_j16406775071044_2_alg».proof.Proof.KValue
import proofs.«126992_j16406775071044_2_alg».proof.Proof.RefValue

set_option maxRecDepth 16384

noncomputable section

namespace Cert.Bridge

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The factor of every node is one function of the edge array in both programs. -/
theorem fac_eq : Cert.ReferenceIdeal.RefValue.fac (Cert.KernelIdeal.KValue.a1 m c) = Cert.KernelIdeal.KValue.fac m c := rfl

/-- The wrapped source column. -/
theorem src_eq : Cert.ReferenceIdeal.ReadP.val_main_v20 (F := Ideal) (Cert.KernelIdeal.KValue.a1 m c) = Cert.KernelIdeal.HostSide.srcCol (F := Ideal) (Cert.KernelIdeal.KValue.a1 m c) := rfl

/-- The target column. -/
theorem dst_eq : Cert.ReferenceIdeal.ReadP.val_main_v42 (F := Ideal) (Cert.KernelIdeal.KValue.a1 m c) = Cert.KernelIdeal.HostSide.dstCol (F := Ideal) (Cert.KernelIdeal.KValue.a1 m c) := rfl

/-- The first nodes of the scored pairs. -/
theorem pair0_eq : Cert.ReferenceIdeal.ReadP.val_main_v72 (F := Ideal) (Cert.KernelIdeal.KValue.a2 m c) = Cert.KernelIdeal.HostSide.pairCol0 (F := Ideal) (Cert.KernelIdeal.KValue.a2 m c) := rfl

/-- The second nodes of the scored pairs. -/
theorem pair1_eq : Cert.ReferenceIdeal.ReadP.val_main_v81 (F := Ideal) (Cert.KernelIdeal.KValue.a2 m c) = Cert.KernelIdeal.HostSide.pairCol1 (F := Ideal) (Cert.KernelIdeal.KValue.a2 m c) := rfl

/-- From memories that agree on the arguments, the reference's result term is what the kernel's result buffer ends
    holding: both are the score of every pair. -/
theorem result_eq (m' : (ℓ : Loc Cert.ReferenceIdeal.nD Cert.ReferenceIdeal.τ Cert.ReferenceIdeal.sig) → Buf (Elt Ideal) ℓ)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.ValueP.res_main_v84 (F := Ideal) m' c = Cert.KernelIdeal.Gen.W13 m ρ c (Proc.devRef .tc Cert.KernelIdeal.main_v65) := by
  obtain ⟨h0, h1, h2, h3, h4, h5, h6⟩ := hag
  rw [Cert.ReferenceIdeal.ReadP.val_main_v84_eq, h0, h1, h2, h3, h4, h5, h6]
  funext i
  obtain ⟨e, rfl⟩ : ∃ e : Fin 200000, i = ix1 e := ⟨i 0, eq_ix1 i⟩
  refine (Cert.ReferenceIdeal.RefValue.result_apply _ _ _ _ _ _ _ e).trans ?_
  refine Eq.trans ?_ (Cert.KernelIdeal.KValue.result_apply m ρ c e).symm
  rw [show Cert.ReferenceIdeal.RefValue.fac (m ((c.tc : Thread Cert.KernelIdeal.nD Cert.KernelIdeal.τ).loc Cert.KernelIdeal.main_arg1)) = Cert.KernelIdeal.KValue.fac m c from fac_eq m c,
    show Cert.ReferenceIdeal.ReadP.val_main_v20 (F := Ideal) (m ((c.tc : Thread Cert.KernelIdeal.nD Cert.KernelIdeal.τ).loc Cert.KernelIdeal.main_arg1)) = _ from src_eq m c,
    show Cert.ReferenceIdeal.ReadP.val_main_v42 (F := Ideal) (m ((c.tc : Thread Cert.KernelIdeal.nD Cert.KernelIdeal.τ).loc Cert.KernelIdeal.main_arg1)) = _ from dst_eq m c,
    show Cert.ReferenceIdeal.ReadP.val_main_v72 (F := Ideal) (m ((c.tc : Thread Cert.KernelIdeal.nD Cert.KernelIdeal.τ).loc Cert.KernelIdeal.main_arg2)) = _ from pair0_eq m c,
    show Cert.ReferenceIdeal.ReadP.val_main_v81 (F := Ideal) (m ((c.tc : Thread Cert.KernelIdeal.nD Cert.KernelIdeal.τ).loc Cert.KernelIdeal.main_arg2)) = _ from pair1_eq m c]

end Cert.Bridge

end
-- ==== Proof.lean ====
/- The proof of `Cert.Claim`: the word-level kernel, its idealization and the idealized reference each run to the
   end with their arguments unchanged, and the two idealized programs end with equal results.

   The program is a two-layer graph network with symmetric normalisation followed by a dot-product score of node
   pairs. With  c r = 1/√(deg r)  (zero where the degree is not positive), one layer sends a node array xw to
       out[r, k] = c r · Σ_{e lands on r} xw[s e, k] · c (s e).
   The kernel scales the node array by c before the gather and the aggregated sums by c afterwards; the reference
   scales every gathered row by  c (s e) · c (d e).  For an edge that lands on r the target is r, and the factor c r,
   a non-negative real, comes out of the finite sum of extended reals: the one law that joins the two sides. No
   finiteness of the inputs is used.

   The frames of the two kernel programs are the generated ones; the reference's frame is its run with the result
   dropped. `preserves` is trivial: the idealization rewrote no operation. For `algebraic`: the kernel's run with its
   result buffer named (Proof/KRun.lean), the five launches' output arrays as whole-array functions of what each
   launch is entered with (Proof/Reg0 … Reg4.lean), the host stretches between them (Proof/KHost.lean), their
   composition into the network's score (Proof/KValue.lean over Proof/Net.lean), the reference's operations read
   into the same score (Proof/RefValue.lean), and the equality of the two (Proof/Bridge.lean). -/
import proofs.«126992_j16406775071044_2_alg».proof.Defs
import proofs.«126992_j16406775071044_2_alg».proof.Proof.Gen.Kernel
import proofs.«126992_j16406775071044_2_alg».proof.Proof.Gen.Kernel.Skeleton
import proofs.«126992_j16406775071044_2_alg».proof.Proof.Gen.Kernel.Launch
import proofs.«126992_j16406775071044_2_alg».proof.Proof.Gen.Kernel.Points
import proofs.«126992_j16406775071044_2_alg».proof.Proof.Gen.Kernel.Frame
import proofs.«126992_j16406775071044_2_alg».proof.Proof.Gen.KernelIdeal
import proofs.«126992_j16406775071044_2_alg».proof.Proof.Gen.KernelIdeal.Skeleton
import proofs.«126992_j16406775071044_2_alg».proof.Proof.Gen.KernelIdeal.Launch
import proofs.«126992_j16406775071044_2_alg».proof.Proof.Gen.KernelIdeal.Points
import proofs.«126992_j16406775071044_2_alg».proof.Proof.Gen.KernelIdeal.Frame
import proofs.«126992_j16406775071044_2_alg».proof.Proof.Gen.ReferenceIdeal
import proofs.«126992_j16406775071044_2_alg».proof.Proof.Gen.Pre_finite_inputs
import proofs.«126992_j16406775071044_2_alg».proof.Proof.KRun
import proofs.«126992_j16406775071044_2_alg».proof.Proof.RefRun
import proofs.«126992_j16406775071044_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs run to the end; the kernel's result buffer and the reference's result term are the same
    array, the score of every pair. -/
theorem algebraic : Cert.algebraic_KernelIdeal_ReferenceIdeal := by
  intro m ρ m' ρ' _ hagree
  refine ⟨fun c => Cert.KernelIdeal.Gen.W13 m ρ c (Proc.devRef .tc Cert.KernelIdeal.main_v65),
    Cert.KernelIdeal.Run.run_main m ρ, ?_⟩
  refine (θ_run Cert.ReferenceIdeal.defs _ _).mono (fun _ h c => ⟨(h c).1.trans ?_, (h c).2⟩)
    (Cert.ReferenceIdeal.ValueP.run (F := Ideal) m' ρ')
  exact Cert.Bridge.result_eq m ρ c m' (hagree c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
